-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x3 : Shape := ⟨2, ![16, 3]⟩
abbrev S3 : Shape := ⟨1, ![3]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x3 : S_.BroadcastsInDim S16x3 (![] : Fin 0 → Fin S16x3.rank)
  reducesTo_S16x3_S_d0_1 : S16x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S3 .f32) (main_v33 : IVec S_ 1) : IVec S_ 1 :=
  let main_v34 : FVec F S3 .f32 := Host.absf main_arg8
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  main_v38

def fn_part1 {F : FTy → Type} [FloatOps F] (main_arg5 : FVec F S32x16 .f32) (main_arg6 : FVec F S16 .f32) (main_arg7 : FVec F S16x3 .f32) (main_arg8 : FVec F S3 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg5
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x3 .f32 := Host.absf main_arg7
  let main_cst_10 : FVec F S_ .f32 := constant S_ .f32 0x7F800000#32
  let main_v30 : FVec F S16x3 .f32 := broadcastInDim S16x3 ![] bcast_S_S16x3 main_cst_10
  let main_v31 : IVec S16x3 1 := cmpf .olt main_v29 main_v30
  let main_c_11 : IVec S_ 1 := constantI S_ 1 1#1
  let main_v32 : IVec S_ 1 := (fun x v => Host.reduce IntOp.andi x v reducesTo_S16x3_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x3200000 32) (main_arg2 : FVec F S3200000 .f32) (main_arg3 : FVec F S128x32 .f32) (main_arg4 : FVec F S32 .f32) (main_arg5 : FVec F S32x16 .f32) (main_arg6 : FVec F S16 .f32) (main_arg7 : FVec F S16x3 .f32) (main_arg8 : FVec F S3 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x32 .f32 := Host.absf main_arg3
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x3 : Shape := ⟨2, ![16, 3]⟩
abbrev S3 : Shape := ⟨1, ![3]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S10000x128 : Shape := ⟨2, ![10000, 128]⟩
abbrev S10000x32 : Shape := ⟨2, ![10000, 32]⟩
abbrev S3300000x32 : Shape := ⟨2, ![3300000, 32]⟩
abbrev S1x32 : Shape := ⟨2, ![1, 32]⟩
abbrev S100000x16 : Shape := ⟨2, ![100000, 16]⟩
abbrev S10000x16 : Shape := ⟨2, ![10000, 16]⟩
abbrev S3300000x16 : Shape := ⟨2, ![3300000, 16]⟩
abbrev S1x16 : Shape := ⟨2, ![1, 16]⟩
abbrev S1x3 : Shape := ⟨2, ![1, 3]⟩
abbrev S100000x3 : Shape := ⟨2, ![100000, 3]⟩
abbrev S10000x3 : Shape := ⟨2, ![10000, 3]⟩

abbrev nBuf : Space → Nat
  | .hbm => 98
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S16x3, .f32⟩
  | .hbm, ⟨8, _⟩ => ⟨S3, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S100000, .i32⟩
  | .hbm, ⟨14, _⟩ => ⟨S3300000, .i32⟩
  | .hbm, ⟨15, _⟩ => ⟨S3300000, .i32⟩
  | .hbm, ⟨16, _⟩ => ⟨S_, .f32⟩
  | .hbm, ⟨17, _⟩ => ⟨S100000, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000, .f32⟩
  | .hbm, ⟨57, _⟩ => ⟨S3300000, .f32⟩
  | .hbm, ⟨58, _⟩ => ⟨S100000x32, .f32⟩
  | .hbm, ⟨59, _⟩ => ⟨S_, .i32⟩
  | .hbm, ⟨60, _⟩ => ⟨S3300000, .i32⟩
  | .hbm, ⟨61, _⟩ => ⟨S3300000, .i1⟩
  | .hbm, ⟨62, _⟩ => ⟨S_, .i32⟩
  | .hbm, ⟨63, _⟩ => ⟨S3300000, .i32⟩
  | .hbm, ⟨64, _⟩ => ⟨S3300000, .i32⟩
  | .hbm, ⟨65, _⟩ => ⟨S3300000, .i32⟩
  | .hbm, ⟨66, _⟩ => ⟨S3300000x1, .i32⟩
  | .hbm, ⟨67, _⟩ => ⟨S3300000x32, .f32⟩
  | .hbm, ⟨68, _⟩ => ⟨S3300000x1, .f32⟩
  | .hbm, ⟨69, _⟩ => ⟨S3300000x32, .f32⟩
  | .hbm, ⟨70, _⟩ => ⟨S3300000x32, .f32⟩
  | .hbm, ⟨71, _⟩ => ⟨S_, .f32⟩
  | .hbm, ⟨72, _⟩ => ⟨S100000x32, .f32⟩
  | .hbm, ⟨73, _⟩ => ⟨S3300000x1, .i32⟩
  | .hbm, ⟨74, _⟩ => ⟨S100000x32, .f32⟩
  | .hbm, ⟨75, _⟩ => ⟨S1x32, .f32⟩
  | .hbm, ⟨76, _⟩ => ⟨S100000x32, .f32⟩
  | .hbm, ⟨77, _⟩ => ⟨S100000x16, .f32⟩
  | .hbm, ⟨78, _⟩ => ⟨S_, .i32⟩
  | .hbm, ⟨79, _⟩ => ⟨S3300000, .i32⟩
  | .hbm, ⟨80, _⟩ => ⟨S3300000, .i1⟩
  | .hbm, ⟨81, _⟩ => ⟨S_, .i32⟩
  | .hbm, ⟨82, _⟩ => ⟨S3300000, .i32⟩
  | .hbm, ⟨83, _⟩ => ⟨S3300000, .i32⟩
  | .hbm, ⟨84, _⟩ => ⟨S3300000, .i32⟩
  | .hbm, ⟨85, _⟩ => ⟨S3300000x1, .i32⟩
  | .hbm, ⟨86, _⟩ => ⟨S3300000x16, .f32⟩
  | .hbm, ⟨87, _⟩ => ⟨S3300000x1, .f32⟩
  | .hbm, ⟨88, _⟩ => ⟨S3300000x16, .f32⟩
  | .hbm, ⟨89, _⟩ => ⟨S3300000x16, .f32⟩
  | .hbm, ⟨90, _⟩ => ⟨S_, .f32⟩
  | .hbm, ⟨91, _⟩ => ⟨S100000x16, .f32⟩
  | .hbm, ⟨92, _⟩ => ⟨S3300000x1, .i32⟩
  | .hbm, ⟨93, _⟩ => ⟨S100000x16, .f32⟩
  | .hbm, ⟨94, _⟩ => ⟨S1x16, .f32⟩
  | .hbm, ⟨95, _⟩ => ⟨S100000x16, .f32⟩
  | .hbm, ⟨96, _⟩ => ⟨S1x3, .f32⟩
  | .hbm, ⟨97, _⟩ => ⟨S100000x3, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S32x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S1x16, .f32⟩
  | .local _ .vmem, ⟨18, _⟩ => ⟨S10000x16, .f32⟩
  | .local _ .vmem, ⟨19, _⟩ => ⟨S10000x16, .f32⟩
  | .local _ .vmem, ⟨20, _⟩ => ⟨S10000x16, .f32⟩
  | .local _ .vmem, ⟨21, _⟩ => ⟨S10000x16, .f32⟩
  | .local _ .vmem, ⟨22, _⟩ => ⟨S16x3, .f32⟩
  | .local _ .vmem, ⟨23, _⟩ => ⟨S1x3, .f32⟩
  | .local _ .vmem, ⟨24, _⟩ => ⟨S10000x3, .f32⟩
  | .local _ .vmem, ⟨25, _⟩ => ⟨S10000x3, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_c_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x3 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x3 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x3 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x16_S32x16_0_0 : ∀ a, (![0, 0] : Fin 2 → Nat) a + S32x16.size a ≤ S32x16.size a
  h_S32x16 : 0 < S32x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  shapeCasts_S3_S1x3 : S3.ShapeCasts S1x3
  inb_S16x3_S16x3_0_0 : ∀ a, (![0, 0] : Fin 2 → Nat) a + S16x3.size a ≤ S16x3.size a
  h_S16x3 : 0 < S16x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S10000x3 : S1x3.Broadcasts S10000x3
  inb_S10000x3_S10000x3_0_0 : ∀ a, (![0, 0] : Fin 2 → Nat) a + S10000x3.size a ≤ S10000x3.size a
  h_S10000x3 : 0 < S10000x3.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x32_S10000x32_1_0_0_1_n_n_wf : DotDims.WF S10000x128 S128x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x16_S10000x16_1_0_0_1_n_n_wf : DotDims.WF S10000x32 S32x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x3_S10000x3_1_0_0_1_n_n_wf : DotDims.WF S10000x16 S16x3 S10000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x16.size a ≤ S100000x16.size a
  hwx3_2 : ∀ i : grid3.Coords, EltTy.bits .f32 = 32 ∨ (Rect.block (s := S100000x16) S10000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x16.size a ≤ S100000x16.size a
  hwx4_0 : ∀ i : grid4.Coords, EltTy.bits .f32 = 32 ∨ (Rect.block (s := S100000x16) S10000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x3.size a ≤ S16x3.size a
  hwx4_1 : ∀ i : grid4.Coords, EltTy.bits .f32 = 32 ∨ (Rect.block (s := S16x3) S16x3.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x3.size a ≤ S1x3.size a
  hwx4_2 : ∀ i : grid4.Coords, EltTy.bits .f32 = 32 ∨ (Rect.block (s := S1x3) S1x3.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x3.size a ≤ S100000x3.size a
  hwx4_3 : ∀ i : grid4.Coords, EltTy.bits .f32 = 32 ∨ (Rect.block (s := S100000x3) S10000x3.size (cc4_transform_3 i) (hinb4_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x3_S10000x3_1_0_0_1_n_n : DotDims S10000x16 S16x3 S10000x3 where
  lhsContracting := [1]
  rhsContracting := [0]
  lhsNonContracting := [0]
  rhsNonContracting := [1]
  lhsBatch := []
  rhsBatch := []
  wf := dot_S10000x16_S16x3_S10000x3_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S10000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S10000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S16x3.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S1x3.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68) S10000x3.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x3 : Shape := ⟨2, ![16, 3]⟩
abbrev S3 : Shape := ⟨1, ![3]⟩
abbrev S100000x32 : Shape := ⟨2, ![100000, 32]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S100000x16 : Shape := ⟨2, ![100000, 16]⟩
abbrev S3300000x16 : Shape := ⟨2, ![3300000, 16]⟩
abbrev S1x16 : Shape := ⟨2, ![1, 16]⟩
abbrev S100000x3 : Shape := ⟨2, ![100000, 3]⟩
abbrev S1x3 : Shape := ⟨2, ![1, 3]⟩

abbrev nBuf : Space → Nat
  | .hbm => 157
  | .vmem => 0
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S128x32, .f32⟩
  | 4 => ⟨S32, .f32⟩
  | 5 => ⟨S32x16, .f32⟩
  | 6 => ⟨S16, .f32⟩
  | 7 => ⟨S16x3, .f32⟩
  | 8 => ⟨S3, .f32⟩
  | 9 => ⟨S100000x32, .f32⟩
  | 10 => ⟨S1x3200000, .i32⟩
  | 11 => ⟨S3200000, .i32⟩
  | 12 => ⟨S1x3200000, .i32⟩
  | 13 => ⟨S3200000, .i32⟩
  | 14 => ⟨S100000, .i32⟩
  | 15 => ⟨S3300000, .i32⟩
  | 16 => ⟨S3300000, .i32⟩
  | 17 => ⟨S_, .f32⟩
  | 18 => ⟨S100000, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .i1⟩
  | 30 => ⟨S_, .f32⟩
  | 31 => ⟨S_, .f32⟩
  | 32 => ⟨S100000, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000, .f32⟩
  | 58 => ⟨S3300000, .f32⟩
  | 59 => ⟨S_, .i32⟩
  | 60 => ⟨S3300000, .i32⟩
  | 61 => ⟨S3300000, .i1⟩
  | 62 => ⟨S_, .i32⟩
  | 63 => ⟨S3300000, .i32⟩
  | 64 => ⟨S3300000, .i32⟩
  | 65 => ⟨S3300000, .i32⟩
  | 66 => ⟨S3300000x1, .i32⟩
  | 67 => ⟨S3300000x32, .f32⟩
  | 68 => ⟨S3300000x1, .f32⟩
  | 69 => ⟨S3300000x32, .f32⟩
  | 70 => ⟨S3300000x32, .f32⟩
  | 71 => ⟨S_, .f32⟩
  | 72 => ⟨S100000x32, .f32⟩
  | 73 => ⟨S3300000x1, .i32⟩
  | 74 => ⟨S100000x32, .f32⟩
  | 75 => ⟨S1x32, .f32⟩
  | 76 => ⟨S100000x32, .f32⟩
  | 77 => ⟨S100000x32, .f32⟩
  | 78 => ⟨S_, .f32⟩
  | 79 => ⟨S100000x32, .f32⟩
  | 80 => ⟨S100000x32, .f32⟩
  | 81 => ⟨S100000x16, .f32⟩
  | 82 => ⟨S1x3200000, .i32⟩
  | 83 => ⟨S3200000, .i32⟩
  | 84 => ⟨S1x3200000, .i32⟩
  | 85 => ⟨S3200000, .i32⟩
  | 86 => ⟨S100000, .i32⟩
  | 87 => ⟨S3300000, .i32⟩
  | 88 => ⟨S3300000, .i32⟩
  | 89 => ⟨S_, .f32⟩
  | 90 => ⟨S100000, .f32⟩
  | 91 => ⟨S3300000, .f32⟩
  | 92 => ⟨S_, .f32⟩
  | 93 => ⟨S100000, .f32⟩
  | 94 => ⟨S3300000x1, .i32⟩
  | 95 => ⟨S100000, .f32⟩
  | 96 => ⟨S_, .f32⟩
  | 97 => ⟨S100000, .f32⟩
  | 98 => ⟨S100000, .i1⟩
  | 99 => ⟨S_, .f32⟩
  | 100 => ⟨S100000, .f32⟩
  | 101 => ⟨S100000, .i1⟩
  | 102 => ⟨S_, .f32⟩
  | 103 => ⟨S_, .f32⟩
  | 104 => ⟨S100000, .f32⟩
  | 105 => ⟨S100000, .f32⟩
  | 106 => ⟨S100000, .f32⟩
  | 107 => ⟨S_, .f32⟩
  | 108 => ⟨S_, .f32⟩
  | 109 => ⟨S100000, .f32⟩
  | 110 => ⟨S100000, .f32⟩
  | 111 => ⟨S_, .i32⟩
  | 112 => ⟨S3300000, .i32⟩
  | 113 => ⟨S3300000, .i1⟩
  | 114 => ⟨S_, .i32⟩
  | 115 => ⟨S3300000, .i32⟩
  | 116 => ⟨S3300000, .i32⟩
  | 117 => ⟨S3300000, .i32⟩
  | 118 => ⟨S3300000x1, .i32⟩
  | 119 => ⟨S3300000, .f32⟩
  | 120 => ⟨S3300000, .f32⟩
  | 121 => ⟨S_, .i32⟩
  | 122 => ⟨S3300000, .i32⟩
  | 123 => ⟨S3300000, .i1⟩
  | 124 => ⟨S_, .i32⟩
  | 125 => ⟨S3300000, .i32⟩
  | 126 => ⟨S3300000, .i32⟩
  | 127 => ⟨S3300000, .i32⟩
  | _ => ⟨S100000x128, .f32⟩

abbrev hbmTy0_1 (i : Nat) : BufTy := match i % 128 with
  | 0 => ⟨S3300000x1, .i32⟩
  | 1 => ⟨S3300000, .f32⟩
  | 2 => ⟨S3300000, .f32⟩
  | 3 => ⟨S_, .i32⟩
  | 4 => ⟨S3300000, .i32⟩
  | 5 => ⟨S3300000, .i1⟩
  | 6 => ⟨S_, .i32⟩
  | 7 => ⟨S3300000, .i32⟩
  | 8 => ⟨S3300000, .i32⟩
  | 9 => ⟨S3300000, .i32⟩
  | 10 => ⟨S3300000x1, .i32⟩
  | 11 => ⟨S3300000x16, .f32⟩
  | 12 => ⟨S3300000x1, .f32⟩
  | 13 => ⟨S3300000x16, .f32⟩
  | 14 => ⟨S3300000x16, .f32⟩
  | 15 => ⟨S_, .f32⟩
  | 16 => ⟨S100000x16, .f32⟩
  | 17 => ⟨S3300000x1, .i32⟩
  | 18 => ⟨S100000x16, .f32⟩
  | 19 => ⟨S1x16, .f32⟩
  | 20 => ⟨S100000x16, .f32⟩
  | 21 => ⟨S100000x16, .f32⟩
  | 22 => ⟨S_, .f32⟩
  | 23 => ⟨S100000x16, .f32⟩
  | 24 => ⟨S100000x16, .f32⟩
  | 25 => ⟨S100000x3, .f32⟩
  | 26 => ⟨S1x3, .f32⟩
  | 27 => ⟨S100000x3, .f32⟩
  | 28 => ⟨S100000x3, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call2_cst : Ref sig .tc := ⟨.hbm, 78, rfl⟩
abbrev main_call2_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_v67 : Ref sig .tc := ⟨.hbm, 98, rfl⟩
abbrev main_cst_14 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_call3_v0 : Ref sig .tc := ⟨.hbm, 103, rfl⟩
abbrev main_call3_v1 : Ref sig .tc := ⟨.hbm, 104, rfl⟩
abbrev main_v70 : Ref sig .tc := ⟨.hbm, 105, rfl⟩
abbrev main_v71 : Ref sig .tc := ⟨.hbm, 106, rfl⟩
abbrev main_cst_16 : Ref sig .tc := ⟨.hbm, 107, rfl⟩
abbrev main_call4_v0 : Ref sig .tc := ⟨.hbm, 108, rfl⟩
abbrev main_call4_v1 : Ref sig .tc := ⟨.hbm, 109, rfl⟩
abbrev main_v72 : Ref sig .tc := ⟨.hbm, 110, rfl⟩
abbrev main_c_17 : Ref sig .tc := ⟨.hbm, 111, rfl⟩
abbrev main_v73 : Ref sig .tc := ⟨.hbm, 112, rfl⟩
abbrev main_v74 : Ref sig .tc := ⟨.hbm, 113, rfl⟩
abbrev main_c_18 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_c_19 : Ref sig .tc := ⟨.hbm, 121, rfl⟩
abbrev main_v81 : Ref sig .tc := ⟨.hbm, 122, rfl⟩
abbrev main_v82 : Ref sig .tc := ⟨.hbm, 123, rfl⟩
abbrev main_c_20 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_c_21 : Ref sig .tc := ⟨.hbm, 131, rfl⟩
abbrev main_v89 : Ref sig .tc := ⟨.hbm, 132, rfl⟩
abbrev main_v90 : Ref sig .tc := ⟨.hbm, 133, rfl⟩
abbrev main_c_22 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_23 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_call5_cst : Ref sig .tc := ⟨.hbm, 150, rfl⟩
abbrev main_call5_v0 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  dot_S100000x128_S128x32_S100000x32_1_0_0_1_n_n_wf : DotDims.WF S100000x128 S128x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x3_S100000x3_1_0_0_1_n_n_wf : DotDims.WF S100000x16 S16x3 S100000x3 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x3_S100000x3_1_0_0_1_n_n : DotDims S100000x16 S16x3 S100000x3 where
  lhsContracting := [1]
  rhsContracting := [0]
  lhsNonContracting := [0]
  rhsNonContracting := [1]
  lhsBatch := []
  rhsBatch := []
  wf := dot_S100000x16_S16x3_S100000x3_1_0_0_1_n_n_wf

class Facts : Prop extends Facts₀ where

variable [Facts]
-- ==== Proof.KernelRun.lean ====
/-
  The idealized kernel's run with its result named.  @main is thirteen segments: stretches of host operations and
  five pallas_calls.  Every weakly fair execution runs them in order, and the contents of the unscoped buffers at
  the end are the fold of the segments from the launch memory; the result buffer is read against that fold, as the
  argument buffers are.
-/
import proofs.«117866_j8160437862929_1_alg».proof.Proof.Gen.KernelIdeal.Frame

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last segment
    boundary's contents and the argument buffers end as launched. -/
theorem run_result : θ_run defs (onTc (τ := τ) (main (F := F))) ⟨m, fun _ => 0, ρ⟩ (fun r => ∀ c : Dev nD,
      r.2.mem ((c.tc : Thread nD τ).loc main_v68) = W13 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v68 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)

end Cert.KernelIdeal.ValueRun

end
-- ==== Proof.LibHostDot.lean ====
/-
  A plain matrix product on the host, read at an index.  `jnp`'s `A @ B` of an m×k by a k×n matrix lowers to a
  `dot_general` contracting the left operand's axis 1 with the right operand's axis 0; over the extended reals its entry
  (r, c) is the sum over the contracted coordinate i of `A (r, i) · B (i, c)`, whatever the precision and schedule.
  The extents are arbitrary naturals; nothing here depends on a program.  The second form takes the record by name
  together with the equation that spells its fields, for a record a program declares as a definition.
-/
import Idealize.ShloMosaic.Lib.Pipeline.Value
import Idealize.ShloMosaic.Lib.ValueIdx
import Idealize.ShloMosaic.PureOps.Ideal.Laws

noncomputable section

open scoped BigOperators

namespace Cert.LibHostDot

open Idealize.ShloMosaic Idealize.ShloMosaic.ValueIdx

/-- The host's product of an m×k by a k×n matrix, read at (r, c): the sum over the contracted coordinate. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    Host.dotGeneral (⟨[1], [0], [0], [1], [], [], w⟩ : DotDims _ _ _) prec A B (ix2 r c)
      = ∑ i : Fin k, A (ix2 r i) * B (ix2 i c) := by
  simp only [Host.dotGeneral]
  rw [Ideal.dotGeneral_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

/-- The same for a record given by name, with the equation that spells it. -/
theorem dotGeneral_plain_apply' {m k n : ℕ} {φ₁ φ₂ : FTy}
    (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hd : d = ⟨[1], [0], [0], [1], [], [], w⟩)
    (prec : Option ContractPrecision) (A : FVec Ideal ⟨2, ![m, k]⟩ φ₁) (B : FVec Ideal ⟨2, ![k, n]⟩ φ₂)
    (r : Fin m) (c : Fin n) :
    Host.dotGeneral d prec A B (ix2 r c) = ∑ i : Fin k, A (ix2 r i) * B (ix2 i c) := by
  subst hd
  exact dotGeneral_plain_apply w prec A B r c

end Cert.LibHostDot

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.LibHostRows.lean ====
import Idealize.ShloMosaic.Lib.Pipeline.Value
import Idealize.ShloMosaic.Lib.ValueIdx
import Idealize.ShloMosaic.Lib.IdealHost
import Idealize.ShloMosaic.PureOps.Ideal.Laws

/-!
# A vector broadcast down the rows, and a column sum, read at an index

`jnp` broadcasts a vector of `C` entries against an `R × C` matrix in two steps, `[C] → [1, C] → [R, C]`;
read at `(r, c)` the result is the vector's entry `c` (`rowBroadcast_apply`).  A host sum of an `R × C`
matrix over its rows, read at `c` over the extended reals, is the initial value plus the sum over `r` of
the entries `(r, c)` (`colSum_apply`).  The extents are arbitrary naturals.
-/

noncomputable section

open scoped BigOperators

namespace Cert.LibHostRows

open Idealize.ShloMosaic Idealize.ShloMosaic.ValueIdx

/-- A vector broadcast down the rows of a matrix, read at an index: the vector at the column. -/
theorem rowBroadcast_apply {α : Type} {R C : ℕ}
    (h1 : (⟨1, ![C]⟩ : Shape).BroadcastsInDim ⟨2, ![1, C]⟩ ![1])
    (h2 : (⟨2, ![1, C]⟩ : Shape).BroadcastsInDim ⟨2, ![R, C]⟩ ![0, 1])
    (y : (⟨1, ![C]⟩ : Shape).Idx → α) (i : (⟨2, ![R, C]⟩ : Shape).Idx) :
    broadcastInDim ⟨2, ![R, C]⟩ ![0, 1] h2 (broadcastInDim ⟨2, ![1, C]⟩ ![1] h1 y) i = y (ix1 (i 1)) := by
  have hc : (i 1).val < C := (i 1).isLt
  rw [broadcastInDim_apply _ h2 _ i (ix2 ⟨0, Nat.one_pos⟩ (i 1)) (fun a => match a with
      | ⟨0, _⟩ => by show (0 : ℕ) = if (1 : ℕ) = 1 then 0 else (i 0).val; rw [if_pos rfl]
      | ⟨1, _⟩ => by
        show (i 1).val = if C = 1 then 0 else (i 1).val
        split
        · omega
        · rfl),
    broadcastInDim_apply _ h1 y _ (ix1 (i 1)) (fun a => match a with
      | ⟨0, _⟩ => by
        show (i 1).val = if C = 1 then 0 else (i 1).val
        split
        · omega
        · rfl)]

/-- The host's sum of a matrix over its rows, read at a column over the extended reals. -/
theorem colSum_apply {R C : ℕ} {φ : FTy} {u : Shape}
    (hr : (⟨2, ![R, C]⟩ : Shape).ReducesTo [0] ⟨1, ![C]⟩) (hR : (⟨2, ![R, C]⟩ : Shape).Reduces [0] ⟨1, ![C]⟩)
    (hu : 0 < u.numel) (X : FVec Ideal ⟨2, ![R, C]⟩ φ) (c : u.Idx → Ideal φ) (j : (⟨1, ![C]⟩ : Shape).Idx) :
    Host.reduceAdd X c hr hu j = c (Shape.Idx.first hu) + ∑ r : Fin R, X (ix2 r (j 0)) := by
  rw [hostReduceAdd_apply, Ideal.hostReduceAdd_single hr hR]
  refine congrArg (_ + ·) (Finset.sum_congr rfl fun k _ => ?_)
  exact congrArg X (funext fun a => Fin.ext (by match a with | ⟨0, _⟩ => rfl | ⟨1, _⟩ => rfl))

end Cert.LibHostRows

end
-- ==== Proof.LibDenseLayers.lean ====
/-
  Dense layers over the extended reals, as functions of whole arrays, and the host operations that compute them.
  The extents n, k, c are arbitrary naturals; nothing here depends on a program.

  * `mm x w` is the matrix product: entry (r, q) is the sum over j of x (r, j) · w (j, q).
  * `addBias x b` adds the vector b to every row of x; `biasRelu x b` is its positive part, max (x + b) 0.
  * `addBiasRow`, `biasReluRow` take the bias as a 1 × c row; the row that is the reshape of a vector acts as the
    vector does (`addBiasRow_cast`, `biasReluRow_cast`).

  On the host a matrix product is a `dot_general` contracting axis 1 of the left operand with axis 0 of the right
  (`hostDot_eq_mm`), a bias is broadcast in two steps [c] → [1, c] → [n, c] and added (`hostAddBias_eq`), and the
  positive part is a maximum with the zero splat (`hostBiasRelu_eq`, `zeroSplat_apply`).  Each lemma reads one of
  these at an index and finds the layer function there.  No law of the extended reals beyond the meaning of the
  operations is used: the sums keep their order and nothing is distributed.
-/
import Idealize.ShloMosaic.Lib.Pipeline.Value
import Idealize.ShloMosaic.Lib.ValueIdx
import Idealize.ShloMosaic.PureOps.Ideal.Laws
import proofs.«117866_j8160437862929_1_alg».proof.Proof.LibHostDot
import proofs.«117866_j8160437862929_1_alg».proof.Proof.LibRowOps
import proofs.«117866_j8160437862929_1_alg».proof.Proof.LibHostRows

noncomputable section

open scoped BigOperators

namespace Cert.Layers

open Idealize.ShloMosaic Idealize.ShloMosaic.ValueIdx

variable {n k c : ℕ}

/-- The matrix product of an n×k by a k×c matrix. -/
def mm (x : FVec Ideal ⟨2, ![n, k]⟩ .f32) (w : FVec Ideal ⟨2, ![k, c]⟩ .f32) : FVec Ideal ⟨2, ![n, c]⟩ .f32 :=
  fun i => ∑ j : Fin k, x (ix2 (i 0) j) * w (ix2 j (i 1))

/-- A vector added to every row of a matrix. -/
def addBias (x : FVec Ideal ⟨2, ![n, c]⟩ .f32) (b : FVec Ideal ⟨1, ![c]⟩ .f32) : FVec Ideal ⟨2, ![n, c]⟩ .f32 :=
  fun i => x i + b (ix1 (i 1))

/-- The positive part of a matrix plus a vector on every row. -/
def biasRelu (x : FVec Ideal ⟨2, ![n, c]⟩ .f32) (b : FVec Ideal ⟨1, ![c]⟩ .f32) : FVec Ideal ⟨2, ![n, c]⟩ .f32 :=
  fun i => max (x i + b (ix1 (i 1))) 0

theorem mm_apply (x : FVec Ideal ⟨2, ![n, k]⟩ .f32) (w : FVec Ideal ⟨2, ![k, c]⟩ .f32) (r : Fin n) (q : Fin c) :
    mm x w (ix2 r q) = ∑ j : Fin k, x (ix2 r j) * w (ix2 j q) := rfl

/-- The host's `dot_general` of two matrices, contracting the inner axis, is the matrix product. -/
theorem hostDot_eq_mm (d : DotDims ⟨2, ![n, k]⟩ ⟨2, ![k, c]⟩ ⟨2, ![n, c]⟩)
    (wf : DotDims.WF ⟨2, ![n, k]⟩ ⟨2, ![k, c]⟩ ⟨2, ![n, c]⟩ [1] [0] [0] [1] [] [])
    (hd : d = ⟨[1], [0], [0], [1], [], [], wf⟩) (prec : Option ContractPrecision)
    (x : FVec Ideal ⟨2, ![n, k]⟩ .f32) (w : FVec Ideal ⟨2, ![k, c]⟩ .f32) :
    Host.dotGeneral d prec x w = mm x w := by
  funext i
  rw [eq_ix2 i]
  exact Cert.LibHostDot.dotGeneral_plain_apply' d wf hd prec x w (i 0) (i 1)

/-- The zero splat broadcast from a scalar reads 0 everywhere. -/
theorem zeroSplat_apply {s : Shape} (h0 : (⟨0, ![]⟩ : Shape).BroadcastsInDim s ![]) (i : s.Idx) :
    broadcastInDim s ![] h0 (constant (F := Ideal) ⟨0, ![]⟩ .f32 0x00000000#32) i = 0 := by
  rw [broadcastInDim_apply ![] h0 _ i ix0 (fun a => a.elim0), constant_apply, Ideal.ofBits_zero_f32]

/-- The host's bias: the vector broadcast to a row and then down the rows, added to the matrix. -/
theorem hostAddBias_eq (h1 : (⟨1, ![c]⟩ : Shape).BroadcastsInDim ⟨2, ![1, c]⟩ ![1])
    (h2 : (⟨2, ![1, c]⟩ : Shape).BroadcastsInDim ⟨2, ![n, c]⟩ ![0, 1])
    (x : FVec Ideal ⟨2, ![n, c]⟩ .f32) (b : FVec Ideal ⟨1, ![c]⟩ .f32) :
    addf x (broadcastInDim ⟨2, ![n, c]⟩ ![0, 1] h2 (broadcastInDim ⟨2, ![1, c]⟩ ![1] h1 b)) = addBias x b := by
  funext i
  rw [addf_apply, Cert.LibHostRows.rowBroadcast_apply h1 h2 b i]
  rfl

/-- The host's bias followed by its maximum with the zero splat is the positive part. -/
theorem hostBiasRelu_eq (h1 : (⟨1, ![c]⟩ : Shape).BroadcastsInDim ⟨2, ![1, c]⟩ ![1])
    (h2 : (⟨2, ![1, c]⟩ : Shape).BroadcastsInDim ⟨2, ![n, c]⟩ ![0, 1])
    (h0 : (⟨0, ![]⟩ : Shape).BroadcastsInDim ⟨2, ![n, c]⟩ ![])
    (x : FVec Ideal ⟨2, ![n, c]⟩ .f32) (b : FVec Ideal ⟨1, ![c]⟩ .f32) :
    maximumf (addf x (broadcastInDim ⟨2, ![n, c]⟩ ![0, 1] h2 (broadcastInDim ⟨2, ![1, c]⟩ ![1] h1 b)))
        (broadcastInDim ⟨2, ![n, c]⟩ ![] h0 (constant (F := Ideal) ⟨0, ![]⟩ .f32 0x00000000#32))
      = biasRelu x b := by
  funext i
  rw [maximumf_apply, zeroSplat_apply h0 i, hostAddBias_eq h1 h2 x b]
  rfl

/-! ## The bias given as a row

  A kernel receives the bias as the 1 × c reshape of the vector and broadcasts that row down the block's rows. -/

/-- A row added to every row of a matrix. -/
def addBiasRow (x : FVec Ideal ⟨2, ![n, c]⟩ .f32) (b : FVec Ideal ⟨2, ![1, c]⟩ .f32) : FVec Ideal ⟨2, ![n, c]⟩ .f32 :=
  fun i => x i + b (ix2 (0 : Fin 1) (i 1))

/-- The positive part of a matrix plus a row on every row. -/
def biasReluRow (x : FVec Ideal ⟨2, ![n, c]⟩ .f32) (b : FVec Ideal ⟨2, ![1, c]⟩ .f32) : FVec Ideal ⟨2, ![n, c]⟩ .f32 :=
  fun i => max (x i + b (ix2 (0 : Fin 1) (i 1))) 0

theorem addBiasRow_apply (x : FVec Ideal ⟨2, ![n, c]⟩ .f32) (b : FVec Ideal ⟨2, ![1, c]⟩ .f32) (r : Fin n) (q : Fin c) :
    addBiasRow x b (ix2 r q) = x (ix2 r q) + b (ix2 (0 : Fin 1) q) := rfl

theorem biasReluRow_apply (x : FVec Ideal ⟨2, ![n, c]⟩ .f32) (b : FVec Ideal ⟨2, ![1, c]⟩ .f32) (r : Fin n) (q : Fin c) :
    biasReluRow x b (ix2 r q) = max (x (ix2 r q) + b (ix2 (0 : Fin 1) q)) 0 := rfl

/-- The row that is the reshape of a vector adds as the vector does. -/
theorem addBiasRow_cast (h : (⟨1, ![c]⟩ : Shape).ShapeCasts ⟨2, ![1, c]⟩)
    (x : FVec Ideal ⟨2, ![n, c]⟩ .f32) (b : FVec Ideal ⟨1, ![c]⟩ .f32) :
    addBiasRow x (shapeCast ⟨2, ![1, c]⟩ b h) = addBias x b := by
  funext i
  obtain ⟨r, q, rfl⟩ : ∃ (r : Fin n) (q : Fin c), i = ix2 r q := ⟨i 0, i 1, eq_ix2 i⟩
  show x (ix2 r q) + shapeCast ⟨2, ![1, c]⟩ b h (ix2 (0 : Fin 1) q) = x (ix2 r q) + b (ix1 q)
  rw [Cert.KernelBody.shapeCast_row_apply]

theorem biasReluRow_cast (h : (⟨1, ![c]⟩ : Shape).ShapeCasts ⟨2, ![1, c]⟩)
    (x : FVec Ideal ⟨2, ![n, c]⟩ .f32) (b : FVec Ideal ⟨1, ![c]⟩ .f32) :
    biasReluRow x (shapeCast ⟨2, ![1, c]⟩ b h) = biasRelu x b := by
  funext i
  obtain ⟨r, q, rfl⟩ : ∃ (r : Fin n) (q : Fin c), i = ix2 r q := ⟨i 0, i 1, eq_ix2 i⟩
  show max (x (ix2 r q) + shapeCast ⟨2, ![1, c]⟩ b h (ix2 (0 : Fin 1) q)) 0 = max (x (ix2 r q) + b (ix1 q)) 0
  rw [Cert.KernelBody.shapeCast_row_apply]

end Cert.Layers

end
-- ==== Proof.Region0.lean ====
/-
  The first pallas_call: the node features times the first weight matrix, ten row blocks of 10000 rows.

  At grid point t the body loads rows [10000 t, 10000 t + 10000) of the feature matrix and the whole weight matrix,
  multiplies them into a zero accumulator and stores the 10000 × 32 product, which is written back to the same
  rows of the result.  Entry (r, q) of the block is the sum over j of x (10000 t + r, j) · w (j, q), which is entry
  (10000 t + r, q) of the whole product; the ten blocks tile the result's rows; so after the call the result array
  is the whole matrix product of the two arrays as the call found them.
-/
import proofs.«117866_j8160437862929_1_alg».proof.Proof.Gen.KernelIdeal.Frame
import proofs.«117866_j8160437862929_1_alg».proof.Proof.LibDenseLayers

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The body's stored value at (r, q): the inner product of row r of the loaded block with column q of the weights. -/
theorem pay_apply (x0 : Vec Ideal S10000x128 .f32) (x1 : Vec Ideal S128x32 .f32) (r : Fin 10000) (q : Fin 32) :
    k0_pay1 (F := Ideal) x0 x1 (ix2 r q) = ∑ j : Fin 128, x0 (ix2 r j) * x1 (ix2 j q) := by
  unfold k0_pay1
  exact Cert.KernelBody.matmul_plain_zero_apply (m := 10000) (k := 128) (n := 32)
    dot_S10000x128_S128x32_S10000x32_1_0_0_1_n_n_wf none _ _ r q

/-- A block whose rows are rows T·10000 … of X and whose weights are W stores the matching rows of the product. -/
theorem pay_eq_mm (x0 : Vec Ideal S10000x128 .f32) (x1 : Vec Ideal S128x32 .f32)
    (X : FVec Ideal ⟨2, ![100000, 128]⟩ .f32) (W : FVec Ideal ⟨2, ![128, 32]⟩ .f32) (T : ℕ)
    (h0 : ∀ (r : Fin 10000) (j : Fin 128) (R : Fin 100000), R.val = T * 10000 + r.val → x0 (ix2 r j) = X (ix2 R j))
    (h1 : ∀ (j : Fin 128) (q : Fin 32), x1 (ix2 j q) = W (ix2 j q))
    (p : Fin 10000) (q : Fin 32) (R : Fin 100000) (hR : R.val = T * 10000 + p.val) :
    k0_pay1 (F := Ideal) x0 x1 (ix2 p q) = Cert.Layers.mm X W (ix2 R q) := by
  rw [pay_apply, Cert.Layers.mm_apply]
  refine Finset.sum_congr rfl fun j _ => ?_
  rw [h0 p j R hR, h1 j q]

/-- The printed index maps over the ten points: the feature block and the result block move together down the
    rows, the weights stay. -/
theorem idx_facts : ∀ t : Fin cfg0.N,
      win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every row block is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point t writes back is block t of the whole product. -/
theorem flushed_eq (c : Dev nD) (t : Fin cfg0.N) :
    (dat0 V c).flushed 2 t = ((cfg0.win 2).blk t).view.read (Elt Ideal)
      (Cert.Layers.mm (n := 100000) (k := 128) (c := 32) (V c main_arg0) (V c main_arg3)) := by
  show (cfg0.win 2).cut (grid0.coords t) ((dat0 V c).after 2 t) = _
  rw [after0_2]
  unfold out0_2
  rw [View.canon_unit_zero zero2]
  simp only [View.ld_unit_zero (S := S10000x128) zero2, View.ld_unit_zero (S := S128x32) zero2]
  obtain ⟨e0, e1, e2, e3, e4, e5⟩ := idx_facts t
  funext y
  obtain ⟨p, q, rfl⟩ : ∃ (p : Fin 10000) (q : Fin 32), y = ix2 p q := ⟨y 0, y 1, eq_ix2 y⟩
  have hp : p.val < 10000 := p.isLt
  refine (pay_eq_mm _ _ (V c main_arg0) (V c main_arg3) (win0_2.index t (0 : Fin 2)) ?_ ?_ p q
    ⟨win0_2.index t (0 : Fin 2) * 10000 + p.val, by omega⟩ rfl).trans ?_
  · intro r j R hR
    show V c main_arg0 (((cfg0.win 0).blk t).view.emb (ix2 r j)) = V c main_arg0 (ix2 R j)
    refine congrArg _ (funext fun a => Fin.ext ?_)
    match a with
    | ⟨0, _⟩ => show win0_0.index t (0 : Fin 2) * 10000 + 1 * r.val = R.val; omega
    | ⟨1, _⟩ => show win0_0.index t (1 : Fin 2) * 128 + 1 * j.val = j.val; omega
  · intro j q
    show V c main_arg3 (((cfg0.win 1).blk t).view.emb (ix2 j q)) = V c main_arg3 (ix2 j q)
    refine congrArg _ (funext fun a => Fin.ext ?_)
    match a with
    | ⟨0, _⟩ => show win0_1.index t (0 : Fin 2) * 128 + 1 * j.val = j.val; omega
    | ⟨1, _⟩ => show win0_1.index t (1 : Fin 2) * 32 + 1 * q.val = q.val; omega
  · show Cert.Layers.mm (V c main_arg0) (V c main_arg3) _ = Cert.Layers.mm (V c main_arg0) (V c main_arg3) (((cfg0.win 2).blk t).view.emb (ix2 p q))
    refine congrArg _ (funext fun a => Fin.ext ?_)
    match a with
    | ⟨0, _⟩ => show win0_2.index t (0 : Fin 2) * 10000 + p.val = win0_2.index t (0 : Fin 2) * 10000 + 1 * p.val; omega
    | ⟨1, _⟩ => show q.val = win0_2.index t (1 : Fin 2) * 32 + 1 * q.val; omega

/-- An index of the result is in point t's block iff each coordinate is in the block's range on its axis. -/
theorem mem_blk (t : Fin cfg0.N) (i : S100000x32.Idx) :
    i ∈ ((cfg0.win 2).blk t).view.set ↔ ∀ a : Fin 2, win0_2.index t a * S10000x32.size a ≤ (i a).val
      ∧ (i a).val < win0_2.index t a * S10000x32.size a + S10000x32.size a := by
  show i ∈ ((View.whole main_v35).slice (win0_2.rect t)).set ↔ _
  rw [View.set_slice_whole, Rect.mem_set_unit]
  exact Iff.rfl

/-- The ten row blocks tile the result: row r is in block r / 10000. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 32 ≤ (i 1).val ∧ (i 1).val < win0_2.index t (1 : Fin 2) * 32 + 32
    omega

/-- After the call the result array is the whole matrix product of the two arrays as the call found them. -/
theorem final (c : Dev nD) :
    (dat0 V c).arrAt 2 cfg0.N = Cert.Layers.mm (n := 100000) (k := 128) (c := 32) (V c main_arg0) (V c main_arg3) :=
  (dat0 V c).arrAt_eq_of_cover 2 _ (fun t _ => flushed_eq V c t) (cover)

end Cert.KernelIdeal.Region0

end
-- ==== Proof.Region1.lean ====
/-
  The second pallas_call: bias and positive part after the first aggregation, ten row blocks of 10000 rows.

  At grid point t the body loads rows [10000 t, 10000 t + 10000) of the aggregated features and the 1 × 32 bias row,
  adds the row to every row of the block, takes the maximum with zero and stores the block, which is written back to
  the same rows of the result.  Entry (r, q) of the block is max (x (10000 t + r, q) + b (0, q)) 0; the ten blocks tile
  the result's rows; so after the call the result array is the positive part of the whole array plus the row.
-/
import proofs.«117866_j8160437862929_1_alg».proof.Proof.Gen.KernelIdeal.Frame
import proofs.«117866_j8160437862929_1_alg».proof.Proof.LibDenseLayers

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The body's stored value at (r, q): the positive part of the block's entry plus the row's entry q (the identity
    casts do nothing; the row is broadcast down the block's rows; the scalar zero is the real 0). -/
theorem pay_apply (x0 : Vec Ideal S10000x32 .f32) (x1 : Vec Ideal S1x32 .f32) (r : Fin 10000) (q : Fin 32) :
    k1_pay1 (F := Ideal) x0 x1 (ix2 r q) = max (x0 (ix2 r q) + x1 (ix2 (0 : Fin 1) q)) 0 := by
  unfold k1_pay1
  show max ((shapeCast S10000x32 x0 shapeCasts_S10000x32_S10000x32) (ix2 r q)
      + (broadcastTo S10000x32 (shapeCast S1x32 x1 shapeCasts_S1x32_S1x32) broadcasts_S1x32_S10000x32) (ix2 r q))
      (Ideal.ofBits .f32 0x00000000#32) = _
  rw [shapeCast_self, shapeCast_self, Cert.KernelBody.broadcastTo_row_apply, Ideal.ofBits_zero_f32]

/-- A block whose rows are rows T·10000 … of X, with the row B, stores the matching rows of the positive part. -/
theorem pay_eq (x0 : Vec Ideal S10000x32 .f32) (x1 : Vec Ideal S1x32 .f32)
    (X : FVec Ideal ⟨2, ![100000, 32]⟩ .f32) (B : FVec Ideal ⟨2, ![1, 32]⟩ .f32) (T : ℕ)
    (h0 : ∀ (r : Fin 10000) (j : Fin 32) (R : Fin 100000), R.val = T * 10000 + r.val → x0 (ix2 r j) = X (ix2 R j))
    (h1 : ∀ (q : Fin 32), x1 (ix2 (0 : Fin 1) q) = B (ix2 (0 : Fin 1) q))
    (p : Fin 10000) (q : Fin 32) (R : Fin 100000) (hR : R.val = T * 10000 + p.val) :
    k1_pay1 (F := Ideal) x0 x1 (ix2 p q) = Cert.Layers.biasReluRow X B (ix2 R q) := by
  rw [pay_apply, Cert.Layers.biasReluRow_apply, h0 p q R hR, h1 q]

/-- The printed index maps over the ten points: the input block and the result block move together down the
    rows, the bias row stays. -/
theorem idx_facts : ∀ t : Fin cfg1.N,
      win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 9
    ∧ win1_2.index t (1 : Fin 2) = 0 :=
  (by decide +kernel : ∀ t : Fin grid1.N, _)

/-- Every row block is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- What point t writes back is block t of the whole positive part. -/
theorem flushed_eq (c : Dev nD) (t : Fin cfg1.N) :
    (dat1 V c).flushed 2 t = ((cfg1.win 2).blk t).view.read (Elt Ideal)
      (Cert.Layers.biasReluRow (n := 100000) (c := 32) (V c main_v48) (V c main_v49)) := by
  show (cfg1.win 2).cut (grid1.coords t) ((dat1 V c).after 2 t) = _
  rw [after1_2]
  unfold out1_2
  rw [View.canon_unit_zero zero2]
  simp only [View.ld_unit_zero (S := S10000x32) zero2, View.ld_unit_zero (S := S1x32) zero2]
  obtain ⟨e0, e1, e2, e3, e4, e5⟩ := idx_facts t
  funext y
  obtain ⟨p, q, rfl⟩ : ∃ (p : Fin 10000) (q : Fin 32), y = ix2 p q := ⟨y 0, y 1, eq_ix2 y⟩
  have hp : p.val < 10000 := p.isLt
  refine (pay_eq _ _ (V c main_v48) (V c main_v49) (win1_2.index t (0 : Fin 2)) ?_ ?_ p q
    ⟨win1_2.index t (0 : Fin 2) * 10000 + p.val, by omega⟩ rfl).trans ?_
  · intro r j R hR
    show V c main_v48 (((cfg1.win 0).blk t).view.emb (ix2 r j)) = V c main_v48 (ix2 R j)
    refine congrArg _ (funext fun a => Fin.ext ?_)
    match a with
    | ⟨0, _⟩ => show win1_0.index t (0 : Fin 2) * 10000 + 1 * r.val = R.val; omega
    | ⟨1, _⟩ => show win1_0.index t (1 : Fin 2) * 32 + 1 * j.val = j.val; omega
  · intro q
    show V c main_v49 (((cfg1.win 1).blk t).view.emb (ix2 (0 : Fin 1) q)) = V c main_v49 (ix2 (0 : Fin 1) q)
    refine congrArg _ (funext fun a => Fin.ext ?_)
    match a with
    | ⟨0, _⟩ => show win1_1.index t (0 : Fin 2) * 1 + 1 * 0 = 0; omega
    | ⟨1, _⟩ => show win1_1.index t (1 : Fin 2) * 32 + 1 * q.val = q.val; omega
  · show Cert.Layers.biasReluRow (V c main_v48) (V c main_v49) _ = Cert.Layers.biasReluRow (V c main_v48) (V c main_v49) (((cfg1.win 2).blk t).view.emb (ix2 p q))
    refine congrArg _ (funext fun a => Fin.ext ?_)
    match a with
    | ⟨0, _⟩ => show win1_2.index t (0 : Fin 2) * 10000 + p.val = win1_2.index t (0 : Fin 2) * 10000 + 1 * p.val; omega
    | ⟨1, _⟩ => show q.val = win1_2.index t (1 : Fin 2) * 32 + 1 * q.val; omega

/-- An index of the result is in point t's block iff each coordinate is in the block's range on its axis. -/
theorem mem_blk (t : Fin cfg1.N) (i : S100000x32.Idx) :
    i ∈ ((cfg1.win 2).blk t).view.set ↔ ∀ a : Fin 2, win1_2.index t a * S10000x32.size a ≤ (i a).val
      ∧ (i a).val < win1_2.index t a * S10000x32.size a + S10000x32.size a := by
  show i ∈ ((View.whole main_v50).slice (win1_2.rect t)).set ↔ _
  rw [View.set_slice_whole, Rect.mem_set_unit]
  exact Iff.rfl

/-- The ten row blocks tile the result: row r is in block r / 10000. -/
theorem cover (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 32 ≤ (i 1).val ∧ (i 1).val < win1_2.index t (1 : Fin 2) * 32 + 32
    omega

/-- After the call the result array is that function of the arrays as the call found them. -/
theorem final (c : Dev nD) :
    (dat1 V c).arrAt 2 cfg1.N = Cert.Layers.biasReluRow (n := 100000) (c := 32) (V c main_v48) (V c main_v49) :=
  (dat1 V c).arrAt_eq_of_cover 2 _ (fun t _ => flushed_eq V c t) (cover)

end Cert.KernelIdeal.Region1

end
-- ==== Proof.Region2.lean ====
/-
  The third pallas_call: the first layer's output times the second weight matrix, ten row blocks of 10000 rows.

  At grid point t the body loads rows [10000 t, 10000 t + 10000) of the 100000 × 32 input and the whole 32 × 16 weight
  matrix, multiplies them into a zero accumulator and stores the 10000 × 16 product, which is written back to the same
  rows of the result.  Entry (r, q) of the block is the sum over j of x (10000 t + r, j) · w (j, q); the ten blocks tile
  the result's rows; so after the call the result array is the whole matrix product.
-/
import proofs.«117866_j8160437862929_1_alg».proof.Proof.Gen.KernelIdeal.Frame
import proofs.«117866_j8160437862929_1_alg».proof.Proof.LibDenseLayers

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The body's stored value at (r, q): the inner product of row r of the loaded block with column q of the weights
    (the block's identity cast and the two changes of float format do nothing over the extended reals). -/
theorem pay_apply (x0 : Vec Ideal S10000x32 .f32) (x1 : Vec Ideal S32x16 .f32) (r : Fin 10000) (q : Fin 16) :
    k2_pay1 (F := Ideal) x0 x1 (ix2 r q) = ∑ j : Fin 32, x0 (ix2 r j) * x1 (ix2 j q) := by
  unfold k2_pay1
  refine (Cert.KernelBody.matmul_plain_zero_apply (m := 10000) (k := 32) (n := 16)
    dot_S10000x32_S32x16_S10000x16_1_0_0_1_n_n_wf none _ _ r q).trans ?_
  rw [shapeCast_self]
  rfl

/-- A block whose rows are rows T·10000 … of X and whose weights are W stores the matching rows of the product. -/
theorem pay_eq (x0 : Vec Ideal S10000x32 .f32) (x1 : Vec Ideal S32x16 .f32)
    (X : FVec Ideal ⟨2, ![100000, 32]⟩ .f32) (W : FVec Ideal ⟨2, ![32, 16]⟩ .f32) (T : ℕ)
    (h0 : ∀ (r : Fin 10000) (j : Fin 32) (R : Fin 100000), R.val = T * 10000 + r.val → x0 (ix2 r j) = X (ix2 R j))
    (h1 : ∀ (j : Fin 32) (q : Fin 16), x1 (ix2 j q) = W (ix2 j q))
    (p : Fin 10000) (q : Fin 16) (R : Fin 100000) (hR : R.val = T * 10000 + p.val) :
    k2_pay1 (F := Ideal) x0 x1 (ix2 p q) = Cert.Layers.mm X W (ix2 R q) := by
  rw [pay_apply, Cert.Layers.mm_apply]
  refine Finset.sum_congr rfl fun j _ => ?_
  rw [h0 p j R hR, h1 j q]

/-- The printed index maps over the ten points: the input block and the result block move together down the
    rows, the weights stay. -/
theorem idx_facts : ∀ t : Fin cfg2.N,
      win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 9
    ∧ win2_2.index t (1 : Fin 2) = 0 :=
  (by decide +kernel : ∀ t : Fin grid2.N, _)

/-- Every row block is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What point t writes back is block t of the whole product. -/
theorem flushed_eq (c : Dev nD) (t : Fin cfg2.N) :
    (dat2 V c).flushed 2 t = ((cfg2.win 2).blk t).view.read (Elt Ideal)
      (Cert.Layers.mm (n := 100000) (k := 32) (c := 16) (V c main_v50) (V c main_arg5)) := by
  show (cfg2.win 2).cut (grid2.coords t) ((dat2 V c).after 2 t) = _
  rw [after2_2]
  unfold out2_2
  rw [View.canon_unit_zero zero2]
  simp only [View.ld_unit_zero (S := S10000x32) zero2, View.ld_unit_zero (S := S32x16) zero2]
  obtain ⟨e0, e1, e2, e3, e4, e5⟩ := idx_facts t
  funext y
  obtain ⟨p, q, rfl⟩ : ∃ (p : Fin 10000) (q : Fin 16), y = ix2 p q := ⟨y 0, y 1, eq_ix2 y⟩
  have hp : p.val < 10000 := p.isLt
  refine (pay_eq _ _ (V c main_v50) (V c main_arg5) (win2_2.index t (0 : Fin 2)) ?_ ?_ p q
    ⟨win2_2.index t (0 : Fin 2) * 10000 + p.val, by omega⟩ rfl).trans ?_
  · intro r j R hR
    show V c main_v50 (((cfg2.win 0).blk t).view.emb (ix2 r j)) = V c main_v50 (ix2 R j)
    refine congrArg _ (funext fun a => Fin.ext ?_)
    match a with
    | ⟨0, _⟩ => show win2_0.index t (0 : Fin 2) * 10000 + 1 * r.val = R.val; omega
    | ⟨1, _⟩ => show win2_0.index t (1 : Fin 2) * 32 + 1 * j.val = j.val; omega
  · intro j q
    show V c main_arg5 (((cfg2.win 1).blk t).view.emb (ix2 j q)) = V c main_arg5 (ix2 j q)
    refine congrArg _ (funext fun a => Fin.ext ?_)
    match a with
    | ⟨0, _⟩ => show win2_1.index t (0 : Fin 2) * 32 + 1 * j.val = j.val; omega
    | ⟨1, _⟩ => show win2_1.index t (1 : Fin 2) * 16 + 1 * q.val = q.val; omega
  · show Cert.Layers.mm (V c main_v50) (V c main_arg5) _ = Cert.Layers.mm (V c main_v50) (V c main_arg5) (((cfg2.win 2).blk t).view.emb (ix2 p q))
    refine congrArg _ (funext fun a => Fin.ext ?_)
    match a with
    | ⟨0, _⟩ => show win2_2.index t (0 : Fin 2) * 10000 + p.val = win2_2.index t (0 : Fin 2) * 10000 + 1 * p.val; omega
    | ⟨1, _⟩ => show q.val = win2_2.index t (1 : Fin 2) * 16 + 1 * q.val; omega

/-- An index of the result is in point t's block iff each coordinate is in the block's range on its axis. -/
theorem mem_blk (t : Fin cfg2.N) (i : S100000x16.Idx) :
    i ∈ ((cfg2.win 2).blk t).view.set ↔ ∀ a : Fin 2, win2_2.index t a * S10000x16.size a ≤ (i a).val
      ∧ (i a).val < win2_2.index t a * S10000x16.size a + S10000x16.size a := by
  show i ∈ ((View.whole main_v51).slice (win2_2.rect t)).set ↔ _
  rw [View.set_slice_whole, Rect.mem_set_unit]
  exact Iff.rfl

/-- The ten row blocks tile the result: row r is in block r / 10000. -/
theorem cover (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 16 ≤ (i 1).val ∧ (i 1).val < win2_2.index t (1 : Fin 2) * 16 + 16
    omega

/-- After the call the result array is that function of the arrays as the call found them. -/
theorem final (c : Dev nD) :
    (dat2 V c).arrAt 2 cfg2.N = Cert.Layers.mm (n := 100000) (k := 32) (c := 16) (V c main_v50) (V c main_arg5) :=
  (dat2 V c).arrAt_eq_of_cover 2 _ (fun t _ => flushed_eq V c t) (cover)

end Cert.KernelIdeal.Region2

end
-- ==== Proof.Region3.lean ====
/-
  The fourth pallas_call: bias and positive part after the second aggregation, ten row blocks of 10000 rows.

  At grid point t the body loads rows [10000 t, 10000 t + 10000) of the aggregated features and the 1 × 16 bias row,
  adds the row to every row of the block, takes the maximum with zero and stores the block, which is written back to
  the same rows of the result.  Entry (r, q) of the block is max (x (10000 t + r, q) + b (0, q)) 0; the ten blocks tile
  the result's rows; so after the call the result array is the positive part of the whole array plus the row.
-/
import proofs.«117866_j8160437862929_1_alg».proof.Proof.Gen.KernelIdeal.Frame
import proofs.«117866_j8160437862929_1_alg».proof.Proof.LibDenseLayers

noncomputable section

open scoped BigOperators

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The body's stored value at (r, q): the positive part of the block's entry plus the row's entry q (the identity
    casts do nothing; the row is broadcast down the block's rows; the scalar zero is the real 0). -/
theorem pay_apply (x0 : Vec Ideal S10000x16 .f32) (x1 : Vec Ideal S1x16 .f32) (r : Fin 10000) (q : Fin 16) :
    k3_pay1 (F := Ideal) x0 x1 (ix2 r q) = max (x0 (ix2 r q) + x1 (ix2 (0 : Fin 1) q)) 0 := by
  unfold k3_pay1
  show max ((shapeCast S10000x16 x0 shapeCasts_S10000x16_S10000x16) (ix2 r q)
      + (broadcastTo S10000x16 (shapeCast S1x16 x1 shapeCasts_S1x16_S1x16) broadcasts_S1x16_S10000x16) (ix2 r q))
      (Ideal.ofBits .f32 0x00000000#32) = _
  rw [shapeCast_self, shapeCast_self, Cert.KernelBody.broadcastTo_row_apply, Ideal.ofBits_zero_f32]

/-- A block whose rows are rows T·10000 … of X, with the row B, stores the matching rows of the positive part. -/
theorem pay_eq (x0 : Vec Ideal S10000x16 .f32) (x1 : Vec Ideal S1x16 .f32)
    (X : FVec Ideal ⟨2, ![100000, 16]⟩ .f32) (B : FVec Ideal ⟨2, ![1, 16]⟩ .f32) (T : ℕ)
    (h0 : ∀ (r : Fin 10000) (j : Fin 16) (R : Fin 100000), R.val = T * 10000 + r.val → x0 (ix2 r j) = X (ix2 R j))
    (h1 : ∀ (q : Fin 16), x1 (ix2 (0 : Fin 1) q) = B (ix2 (0 : Fin 1) q))
    (p : Fin 10000) (q : Fin 16) (R : Fin 100000) (hR : R.val = T * 10000 + p.val) :
    k3_pay1 (F := Ideal) x0 x1 (ix2 p q) = Cert.Layers.biasReluRow X B (ix2 R q) := by
  rw [pay_apply, Cert.Layers.biasReluRow_apply, h0 p q R hR, h1 q]

/-- The printed index maps over the ten points: the input block and the result block move together down the
    rows, the bias row stays. -/
theorem idx_facts : ∀ t : Fin cfg3.N,
      win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 9
    ∧ win3_2.index t (1 : Fin 2) = 0 :=
  (by decide +kernel : ∀ t : Fin grid3.N, _)

/-- Every row block is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- What point t writes back is block t of the whole positive part. -/
theorem flushed_eq (c : Dev nD) (t : Fin cfg3.N) :
    (dat3 V c).flushed 2 t = ((cfg3.win 2).blk t).view.read (Elt Ideal)
      (Cert.Layers.biasReluRow (n := 100000) (c := 16) (V c main_v64) (V c main_v65)) := by
  show (cfg3.win 2).cut (grid3.coords t) ((dat3 V c).after 2 t) = _
  rw [after3_2]
  unfold out3_2
  rw [View.canon_unit_zero zero2]
  simp only [View.ld_unit_zero (S := S10000x16) zero2, View.ld_unit_zero (S := S1x16) zero2]
  obtain ⟨e0, e1, e2, e3, e4, e5⟩ := idx_facts t
  funext y
  obtain ⟨p, q, rfl⟩ : ∃ (p : Fin 10000) (q : Fin 16), y = ix2 p q := ⟨y 0, y 1, eq_ix2 y⟩
  have hp : p.val < 10000 := p.isLt
  refine (pay_eq _ _ (V c main_v64) (V c main_v65) (win3_2.index t (0 : Fin 2)) ?_ ?_ p q
    ⟨win3_2.index t (0 : Fin 2) * 10000 + p.val, by omega⟩ rfl).trans ?_
  · intro r j R hR
    show V c main_v64 (((cfg3.win 0).blk t).view.emb (ix2 r j)) = V c main_v64 (ix2 R j)
    refine congrArg _ (funext fun a => Fin.ext ?_)
    match a with
    | ⟨0, _⟩ => show win3_0.index t (0 : Fin 2) * 10000 + 1 * r.val = R.val; omega
    | ⟨1, _⟩ => show win3_0.index t (1 : Fin 2) * 16 + 1 * j.val = j.val; omega
  · intro q
    show V c main_v65 (((cfg3.win 1).blk t).view.emb (ix2 (0 : Fin 1) q)) = V c main_v65 (ix2 (0 : Fin 1) q)
    refine congrArg _ (funext fun a => Fin.ext ?_)
    match a with
    | ⟨0, _⟩ => show win3_1.index t (0 : Fin 2) * 1 + 1 * 0 = 0; omega
    | ⟨1, _⟩ => show win3_1.index t (1 : Fin 2) * 16 + 1 * q.val = q.val; omega
  · show Cert.Layers.biasReluRow (V c main_v64) (V c main_v65) _ = Cert.Layers.biasReluRow (V c main_v64) (V c main_v65) (((cfg3.win 2).blk t).view.emb (ix2 p q))
    refine congrArg _ (funext fun a => Fin.ext ?_)
    match a with
    | ⟨0, _⟩ => show win3_2.index t (0 : Fin 2) * 10000 + p.val = win3_2.index t (0 : Fin 2) * 10000 + 1 * p.val; omega
    | ⟨1, _⟩ => show q.val = win3_2.index t (1 : Fin 2) * 16 + 1 * q.val; omega

/-- An index of the result is in point t's block iff each coordinate is in the block's range on its axis. -/
theorem mem_blk (t : Fin cfg3.N) (i : S100000x16.Idx) :
    i ∈ ((cfg3.win 2).blk t).view.set ↔ ∀ a : Fin 2, win3_2.index t a * S10000x16.size a ≤ (i a).val
      ∧ (i a).val < win3_2.index t a * S10000x16.size a + S10000x16.size a := by
  show i ∈ ((View.whole main_v66).slice (win3_2.rect t)).set ↔ _
  rw [View.set_slice_whole, Rect.mem_set_unit]
  exact Iff.rfl

/-- The ten row blocks tile the result: row r is in block r / 10000. -/
theorem cover (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 16 ≤ (i 1).val ∧ (i 1).val < win3_2.index t (1 : Fin 2) * 16 + 16
    omega

/-- After the call the result array is that function of the arrays as the call found them. -/
theorem final (c : Dev nD) :
    (dat3 V c).arrAt 2 cfg3.N = Cert.Layers.biasReluRow (n := 100000) (c := 16) (V c main_v64) (V c main_v65) :=
  (dat3 V c).arrAt_eq_of_cover 2 _ (fun t _ => flushed_eq V c t) (cover)

end Cert.KernelIdeal.Region3

end
-- ==== Proof.Region4.lean ====
/-
  The fifth pallas_call: the linear head, ten row blocks of 10000 rows.

  At grid point t the body loads rows [10000 t, 10000 t + 10000) of the 100000 × 16 input, the whole 16 × 3 weight
  matrix and the 1 × 3 bias row, multiplies block and weights into a zero accumulator, adds the row to every row and
  stores the 10000 × 3 block, which is written back to the same rows of the result.  Entry (r, q) of the block is the
  sum over j of x (10000 t + r, j) · w (j, q) plus b (0, q); the ten blocks tile the result's rows; so after the call
  the result array is the whole matrix product plus the bias row on every row.
-/
import proofs.«117866_j8160437862929_1_alg».proof.Proof.Gen.KernelIdeal.Frame
import proofs.«117866_j8160437862929_1_alg».proof.Proof.LibDenseLayers

noncomputable section

open scoped BigOperators

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The body's stored value at (r, q): the inner product of row r of the loaded block with column q of the weights,
    plus the bias row's entry q. -/
theorem pay_apply (x0 : Vec Ideal S10000x16 .f32) (x1 : Vec Ideal S16x3 .f32) (x2 : Vec Ideal S1x3 .f32)
    (r : Fin 10000) (q : Fin 3) :
    k4_pay1 (F := Ideal) x0 x1 x2 (ix2 r q) = (∑ j : Fin 16, x0 (ix2 r j) * x1 (ix2 j q)) + x2 (ix2 (0 : Fin 1) q) := by
  unfold k4_pay1
  refine congrArg₂ (· + ·) ((Cert.KernelBody.matmul_plain_zero_apply (m := 10000) (k := 16) (n := 3)
    dot_S10000x16_S16x3_S10000x3_1_0_0_1_n_n_wf none _ _ r q).trans ?_) ?_
  · rw [shapeCast_self]
    rfl
  · rw [shapeCast_self, Cert.KernelBody.broadcastTo_row_apply]

/-- A block whose rows are rows T·10000 … of X, with weights W and the row B, stores the matching rows of the
    product plus the bias. -/
theorem pay_eq (x0 : Vec Ideal S10000x16 .f32) (x1 : Vec Ideal S16x3 .f32) (x2 : Vec Ideal S1x3 .f32)
    (X : FVec Ideal ⟨2, ![100000, 16]⟩ .f32) (W : FVec Ideal ⟨2, ![16, 3]⟩ .f32) (B : FVec Ideal ⟨2, ![1, 3]⟩ .f32) (T : ℕ)
    (h0 : ∀ (r : Fin 10000) (j : Fin 16) (R : Fin 100000), R.val = T * 10000 + r.val → x0 (ix2 r j) = X (ix2 R j))
    (h1 : ∀ (j : Fin 16) (q : Fin 3), x1 (ix2 j q) = W (ix2 j q))
    (h2 : ∀ (q : Fin 3), x2 (ix2 (0 : Fin 1) q) = B (ix2 (0 : Fin 1) q))
    (p : Fin 10000) (q : Fin 3) (R : Fin 100000) (hR : R.val = T * 10000 + p.val) :
    k4_pay1 (F := Ideal) x0 x1 x2 (ix2 p q) = Cert.Layers.addBiasRow (Cert.Layers.mm X W) B (ix2 R q) := by
  rw [pay_apply, Cert.Layers.addBiasRow_apply, Cert.Layers.mm_apply, h2 q]
  refine congrArg (· + B (ix2 (0 : Fin 1) q)) (Finset.sum_congr rfl fun j _ => ?_)
  rw [h0 p j R hR, h1 j q]

/-- The printed index maps over the ten points: the input block and the result block move together down the
    rows, the weights and the bias row stay. -/
theorem idx_facts : ∀ t : Fin cfg4.N,
      win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) ≤ 9
    ∧ win4_3.index t (1 : Fin 2) = 0 :=
  (by decide +kernel : ∀ t : Fin grid4.N, _)

/-- Every row block is some point's. -/
theorem idx_onto : ∀ q0 : Fin 10, ∃ t : Fin cfg4.N, win4_3.index t = ![q0.val, 0] :=
  (by decide +kernel : ∀ q0 : Fin 10, ∃ t : Fin grid4.N, win4_3.index t = ![q0.val, 0])

/-- What point t writes back is block t of the whole product plus bias. -/
theorem flushed_eq (c : Dev nD) (t : Fin cfg4.N) :
    (dat4 V c).flushed 3 t = ((cfg4.win 3).blk t).view.read (Elt Ideal)
      (Cert.Layers.addBiasRow (Cert.Layers.mm (n := 100000) (k := 16) (c := 3) (V c main_v66) (V c main_arg7)) (V c main_v67)) := by
  show (cfg4.win 3).cut (grid4.coords t) ((dat4 V c).after 3 t) = _
  rw [after4_3]
  unfold out4_3
  rw [View.canon_unit_zero zero2]
  simp only [View.ld_unit_zero (S := S10000x16) zero2, View.ld_unit_zero (S := S16x3) zero2, View.ld_unit_zero (S := S1x3) zero2]
  obtain ⟨e0, e1, e2, e3, e4, e5, e6, e7⟩ := idx_facts t
  funext y
  obtain ⟨p, q, rfl⟩ : ∃ (p : Fin 10000) (q : Fin 3), y = ix2 p q := ⟨y 0, y 1, eq_ix2 y⟩
  have hp : p.val < 10000 := p.isLt
  refine (pay_eq _ _ _ (V c main_v66) (V c main_arg7) (V c main_v67) (win4_3.index t (0 : Fin 2)) ?_ ?_ ?_ p q
    ⟨win4_3.index t (0 : Fin 2) * 10000 + p.val, by omega⟩ rfl).trans ?_
  · intro r j R hR
    show V c main_v66 (((cfg4.win 0).blk t).view.emb (ix2 r j)) = V c main_v66 (ix2 R j)
    refine congrArg _ (funext fun a => Fin.ext ?_)
    match a with
    | ⟨0, _⟩ => show win4_0.index t (0 : Fin 2) * 10000 + 1 * r.val = R.val; omega
    | ⟨1, _⟩ => show win4_0.index t (1 : Fin 2) * 16 + 1 * j.val = j.val; omega
  · intro j q
    show V c main_arg7 (((cfg4.win 1).blk t).view.emb (ix2 j q)) = V c main_arg7 (ix2 j q)
    refine congrArg _ (funext fun a => Fin.ext ?_)
    match a with
    | ⟨0, _⟩ => show win4_1.index t (0 : Fin 2) * 16 + 1 * j.val = j.val; omega
    | ⟨1, _⟩ => show win4_1.index t (1 : Fin 2) * 3 + 1 * q.val = q.val; omega
  · intro q
    show V c main_v67 (((cfg4.win 2).blk t).view.emb (ix2 (0 : Fin 1) q)) = V c main_v67 (ix2 (0 : Fin 1) q)
    refine congrArg _ (funext fun a => Fin.ext ?_)
    match a with
    | ⟨0, _⟩ => show win4_2.index t (0 : Fin 2) * 1 + 1 * 0 = 0; omega
    | ⟨1, _⟩ => show win4_2.index t (1 : Fin 2) * 3 + 1 * q.val = q.val; omega
  · show Cert.Layers.addBiasRow (Cert.Layers.mm (V c main_v66) (V c main_arg7)) (V c main_v67) _ = Cert.Layers.addBiasRow (Cert.Layers.mm (V c main_v66) (V c main_arg7)) (V c main_v67) (((cfg4.win 3).blk t).view.emb (ix2 p q))
    refine congrArg _ (funext fun a => Fin.ext ?_)
    match a with
    | ⟨0, _⟩ => show win4_3.index t (0 : Fin 2) * 10000 + p.val = win4_3.index t (0 : Fin 2) * 10000 + 1 * p.val; omega
    | ⟨1, _⟩ => show q.val = win4_3.index t (1 : Fin 2) * 3 + 1 * q.val; omega

/-- An index of the result is in point t's block iff each coordinate is in the block's range on its axis. -/
theorem mem_blk (t : Fin cfg4.N) (i : S100000x3.Idx) :
    i ∈ ((cfg4.win 3).blk t).view.set ↔ ∀ a : Fin 2, win4_3.index t a * S10000x3.size a ≤ (i a).val
      ∧ (i a).val < win4_3.index t a * S10000x3.size a + S10000x3.size a := by
  show i ∈ ((View.whole main_v68).slice (win4_3.rect t)).set ↔ _
  rw [View.set_slice_whole, Rect.mem_set_unit]
  exact Iff.rfl

/-- The ten row blocks tile the result: row r is in block r / 10000. -/
theorem cover (i : S100000x3.Idx) :
    ∃ t : Fin cfg4.N, (cfg4.win 3).flush t = true ∧ i ∈ ((cfg4.win 3).blk t).view.set := by
  have hi0 : (i 0).val < 100000 := (i 0).isLt
  have hi1 : (i 1).val < 3 := (i 1).isLt
  obtain ⟨t, ht⟩ := idx_onto ⟨(i 0).val / 10000, by omega⟩
  have q0 : win4_3.index t (0 : Fin 2) = (i 0).val / 10000 := congrFun ht 0
  have q1 : win4_3.index t (1 : Fin 2) = 0 := congrFun ht 1
  refine ⟨t, flush4_3 t, ?_⟩
  rw [mem_blk]
  intro a
  match a with
  | ⟨0, _⟩ =>
    show win4_3.index t (0 : Fin 2) * 10000 ≤ (i 0).val ∧ (i 0).val < win4_3.index t (0 : Fin 2) * 10000 + 10000
    omega
  | ⟨1, _⟩ =>
    show win4_3.index t (1 : Fin 2) * 3 ≤ (i 1).val ∧ (i 1).val < win4_3.index t (1 : Fin 2) * 3 + 3
    omega

/-- After the call the result array is that function of the arrays as the call found them. -/
theorem final (c : Dev nD) :
    (dat4 V c).arrAt 3 cfg4.N = Cert.Layers.addBiasRow (Cert.Layers.mm (n := 100000) (k := 16) (c := 3) (V c main_v66) (V c main_arg7)) (V c main_v67) :=
  (dat4 V c).arrAt_eq_of_cover 3 _ (fun t _ => flushed_eq V c t) (cover)

end Cert.KernelIdeal.Region4

end
-- ==== Proof.RefTarget.lean ====
/-
  The reference, layer by layer.  A graph convolution layer is: multiply the features by the weights; for every
  edge and every self loop take the source node's row, scale it by the edge's normalisation coefficient and add it
  into the destination node's row; add the bias; take the positive part.  The coefficients depend only on the graph,
  so the second layer's copy of their computation is the first layer's, term for term.  The reference is two such
  layers and a linear head, and this file states it in that form: `target`.
-/
import proofs.«117866_j8160437862929_1_alg».proof.Proof.Gen.ReferenceIdeal.Read
import proofs.«117866_j8160437862929_1_alg».proof.Proof.LibDenseLayers

noncomputable section

namespace Cert.ReferenceIdeal.Target

open Cert.ReferenceIdeal Cert.ReferenceIdeal.Gen Cert.ReferenceIdeal.Read Cert.Layers
open Idealize.ShloMosaic Idealize.ShloMosaic.TcCoe Idealize.ShloMosaic.ValueIdx

/-- An index below zero counts from the end of the 100000 nodes. -/
def wrap (s : (⟨S3300000, .i32⟩ : BufTy).Contents (Elt Ideal)) : (⟨S3300000, .i32⟩ : BufTy).Contents (Elt Ideal) :=
  select (cmpi .slt s (broadcastInDim S3300000 ![] bcast_S_S3300000 (constantI S_ 32 0#32)))
    (addi s (broadcastInDim S3300000 ![] bcast_S_S3300000 (constantI S_ 32 100000#32))) s

/-- One aggregation step at width 32: every edge (and self loop) e takes row src e of the features, scales it by the
    edge's normalisation coefficient, and adds it into row dst e of a zero array.  A negative source index counts from
    the end, as jnp indexing does. -/
def agg32 (h : (⟨S100000x32, .f32⟩ : BufTy).Contents (Elt Ideal)) (s d : (⟨S3300000, .i32⟩ : BufTy).Contents (Elt Ideal)) (n : (⟨S3300000, .f32⟩ : BufTy).Contents (Elt Ideal)) :
    (⟨S100000x32, .f32⟩ : BufTy).Contents (Elt Ideal) :=
  Host.scatterAdd scatter_S100000x32_S3300000x1_S3300000x32_1_0_0_1
    (broadcastInDim S100000x32 ![] bcast_S_S100000x32 (constant (F := Ideal) S_ .f32 0x00000000#32))
    (broadcastInDim S3300000x1 ![0] bcast_S3300000_S3300000x1_0 d)
    (mulf (Host.gather gather_S100000x32_S3300000x1_S3300000x32_1_0_n_n_0_1_132 h
        (broadcastInDim S3300000x1 ![0] bcast_S3300000_S3300000x1_0 (wrap s)))
      (broadcastInDim S3300000x32 ![0, 1] bcast_S3300000x1_S3300000x32_0_1
        (broadcastInDim S3300000x1 ![0] bcast_S3300000_S3300000x1_0 n)))

/-- One aggregation step at width 16: every edge (and self loop) e takes row src e of the features, scales it by the
    edge's normalisation coefficient, and adds it into row dst e of a zero array.  A negative source index counts from
    the end, as jnp indexing does. -/
def agg16 (h : (⟨S100000x16, .f32⟩ : BufTy).Contents (Elt Ideal)) (s d : (⟨S3300000, .i32⟩ : BufTy).Contents (Elt Ideal)) (n : (⟨S3300000, .f32⟩ : BufTy).Contents (Elt Ideal)) :
    (⟨S100000x16, .f32⟩ : BufTy).Contents (Elt Ideal) :=
  Host.scatterAdd scatter_S100000x16_S3300000x1_S3300000x16_1_0_0_1
    (broadcastInDim S100000x16 ![] bcast_S_S100000x16 (constant (F := Ideal) S_ .f32 0x00000000#32))
    (broadcastInDim S3300000x1 ![0] bcast_S3300000_S3300000x1_0 d)
    (mulf (Host.gather gather_S100000x16_S3300000x1_S3300000x16_1_0_n_n_0_1_116 h
        (broadcastInDim S3300000x1 ![0] bcast_S3300000_S3300000x1_0 (wrap s)))
      (broadcastInDim S3300000x16 ![0, 1] bcast_S3300000x1_S3300000x16_0_1
        (broadcastInDim S3300000x1 ![0] bcast_S3300000_S3300000x1_0 n)))

/-- The source node of every edge followed by the self loops. -/
abbrev src (x1 : (⟨S2x3200000, .i32⟩ : BufTy).Contents (Elt Ideal)) : (⟨S3300000, .i32⟩ : BufTy).Contents (Elt Ideal) := val_main_v6 (F := Ideal) x1
/-- The destination node of every edge followed by the self loops. -/
abbrev dst (x1 : (⟨S2x3200000, .i32⟩ : BufTy).Contents (Elt Ideal)) : (⟨S3300000, .i32⟩ : BufTy).Contents (Elt Ideal) := val_main_v7 (F := Ideal) x1
/-- The symmetric normalisation coefficient of every edge and self loop. -/
abbrev nrm (x1 : (⟨S2x3200000, .i32⟩ : BufTy).Contents (Elt Ideal)) (x2 : (⟨S3200000, .f32⟩ : BufTy).Contents (Elt Ideal)) : (⟨S3300000, .f32⟩ : BufTy).Contents (Elt Ideal) :=
  val_main_v35 (F := Ideal) x1 x2

/-- Two graph convolution layers and the linear head, as one function of the nine arguments. -/
def target (x0 : (⟨S100000x128, .f32⟩ : BufTy).Contents (Elt Ideal)) (x1 : (⟨S2x3200000, .i32⟩ : BufTy).Contents (Elt Ideal)) (x2 : (⟨S3200000, .f32⟩ : BufTy).Contents (Elt Ideal))
    (x3 : (⟨S128x32, .f32⟩ : BufTy).Contents (Elt Ideal)) (x4 : (⟨S32, .f32⟩ : BufTy).Contents (Elt Ideal)) (x5 : (⟨S32x16, .f32⟩ : BufTy).Contents (Elt Ideal)) (x6 : (⟨S16, .f32⟩ : BufTy).Contents (Elt Ideal))
    (x7 : (⟨S16x3, .f32⟩ : BufTy).Contents (Elt Ideal)) (x8 : (⟨S3, .f32⟩ : BufTy).Contents (Elt Ideal)) : (⟨S100000x3, .f32⟩ : BufTy).Contents (Elt Ideal) :=
  addBias (mm (biasRelu (agg16 (mm (biasRelu (agg32 (mm x0 x3) (src x1) (dst x1) (nrm x1 x2)) x4) x5)
    (src x1) (dst x1) (nrm x1 x2)) x6) x7) x8

/-- The first layer of the reference. -/
theorem layer1 (x0 : (⟨S100000x128, .f32⟩ : BufTy).Contents (Elt Ideal)) (x1 : (⟨S2x3200000, .i32⟩ : BufTy).Contents (Elt Ideal)) (x2 : (⟨S3200000, .f32⟩ : BufTy).Contents (Elt Ideal))
    (x3 : (⟨S128x32, .f32⟩ : BufTy).Contents (Elt Ideal)) (x4 : (⟨S32, .f32⟩ : BufTy).Contents (Elt Ideal)) :
    val_main_v52 (F := Ideal) x0 x1 x2 x3 x4
      = biasRelu (agg32 (mm x0 x3) (src x1) (dst x1) (nrm x1 x2)) x4 := by
  have e0 : val_main_v0 (F := Ideal) x0 x3 = mm x0 x3 :=
    hostDot_eq_mm _ dot_S100000x128_S128x32_S100000x32_1_0_0_1_n_n_wf rfl none x0 x3
  have e48 : val_main_v48 (F := Ideal) x0 x1 x2 x3
      = agg32 (val_main_v0 (F := Ideal) x0 x3) (src x1) (dst x1) (nrm x1 x2) := rfl
  show maximumf (addf (val_main_v48 (F := Ideal) x0 x1 x2 x3)
      (broadcastInDim S100000x32 ![0, 1] bcast_S1x32_S100000x32_0_1 (broadcastInDim S1x32 ![1] bcast_S32_S1x32_1 x4)))
      (broadcastInDim S100000x32 ![] bcast_S_S100000x32 (constant (F := Ideal) S_ .f32 0x00000000#32)) = _
  rw [hostBiasRelu_eq, e48, e0]

/-- The second layer recomputes the edge lists and the coefficients; the copies are the first layer's. -/
theorem src_again (x1 : (⟨S2x3200000, .i32⟩ : BufTy).Contents (Elt Ideal)) : val_main_v59 (F := Ideal) x1 = src x1 := rfl
theorem dst_again (x1 : (⟨S2x3200000, .i32⟩ : BufTy).Contents (Elt Ideal)) : val_main_v60 (F := Ideal) x1 = dst x1 := rfl
theorem nrm_again (x1 : (⟨S2x3200000, .i32⟩ : BufTy).Contents (Elt Ideal)) (x2 : (⟨S3200000, .f32⟩ : BufTy).Contents (Elt Ideal)) :
    val_main_v88 (F := Ideal) x1 x2 = nrm x1 x2 := rfl

/-- The second layer of the reference, over the first layer's output. -/
theorem layer2 (x0 : (⟨S100000x128, .f32⟩ : BufTy).Contents (Elt Ideal)) (x1 : (⟨S2x3200000, .i32⟩ : BufTy).Contents (Elt Ideal)) (x2 : (⟨S3200000, .f32⟩ : BufTy).Contents (Elt Ideal))
    (x3 : (⟨S128x32, .f32⟩ : BufTy).Contents (Elt Ideal)) (x4 : (⟨S32, .f32⟩ : BufTy).Contents (Elt Ideal)) (x5 : (⟨S32x16, .f32⟩ : BufTy).Contents (Elt Ideal)) (x6 : (⟨S16, .f32⟩ : BufTy).Contents (Elt Ideal)) :
    val_main_v105 (F := Ideal) x0 x1 x2 x3 x4 x5 x6
      = biasRelu (agg16 (mm (val_main_v52 (F := Ideal) x0 x1 x2 x3 x4) x5) (src x1) (dst x1) (nrm x1 x2)) x6 := by
  have e53 : val_main_v53 (F := Ideal) x0 x1 x2 x3 x4 x5 = mm (val_main_v52 (F := Ideal) x0 x1 x2 x3 x4) x5 :=
    hostDot_eq_mm _ dot_S100000x32_S32x16_S100000x16_1_0_0_1_n_n_wf rfl none _ x5
  have e101 : val_main_v101 (F := Ideal) x0 x1 x2 x3 x4 x5
      = agg16 (val_main_v53 (F := Ideal) x0 x1 x2 x3 x4 x5) (val_main_v59 (F := Ideal) x1) (val_main_v60 (F := Ideal) x1)
          (val_main_v88 (F := Ideal) x1 x2) := rfl
  show maximumf (addf (val_main_v101 (F := Ideal) x0 x1 x2 x3 x4 x5)
      (broadcastInDim S100000x16 ![0, 1] bcast_S1x16_S100000x16_0_1 (broadcastInDim S1x16 ![1] bcast_S16_S1x16_1 x6)))
      (broadcastInDim S100000x16 ![] bcast_S_S100000x16 (constant (F := Ideal) S_ .f32 0x00000000#32)) = _
  rw [hostBiasRelu_eq, e101, e53, src_again, dst_again, nrm_again]

/-- The head of the reference: the last product and its bias. -/
theorem head (x0 : (⟨S100000x128, .f32⟩ : BufTy).Contents (Elt Ideal)) (x1 : (⟨S2x3200000, .i32⟩ : BufTy).Contents (Elt Ideal)) (x2 : (⟨S3200000, .f32⟩ : BufTy).Contents (Elt Ideal))
    (x3 : (⟨S128x32, .f32⟩ : BufTy).Contents (Elt Ideal)) (x4 : (⟨S32, .f32⟩ : BufTy).Contents (Elt Ideal)) (x5 : (⟨S32x16, .f32⟩ : BufTy).Contents (Elt Ideal)) (x6 : (⟨S16, .f32⟩ : BufTy).Contents (Elt Ideal))
    (x7 : (⟨S16x3, .f32⟩ : BufTy).Contents (Elt Ideal)) (x8 : (⟨S3, .f32⟩ : BufTy).Contents (Elt Ideal)) :
    val_main_v109 (F := Ideal) x0 x1 x2 x3 x4 x5 x6 x7 x8
      = addBias (mm (val_main_v105 (F := Ideal) x0 x1 x2 x3 x4 x5 x6) x7) x8 := by
  have e106 : val_main_v106 (F := Ideal) x0 x1 x2 x3 x4 x5 x6 x7
      = mm (val_main_v105 (F := Ideal) x0 x1 x2 x3 x4 x5 x6) x7 :=
    hostDot_eq_mm _ dot_S100000x16_S16x3_S100000x3_1_0_0_1_n_n_wf rfl none _ x7
  unfold val_main_v109 val_main_v108 val_main_v107
  rw [hostAddBias_eq, e106]

/-- The reference's result is the target. -/
theorem ref_eq (x0 : (⟨S100000x128, .f32⟩ : BufTy).Contents (Elt Ideal)) (x1 : (⟨S2x3200000, .i32⟩ : BufTy).Contents (Elt Ideal)) (x2 : (⟨S3200000, .f32⟩ : BufTy).Contents (Elt Ideal))
    (x3 : (⟨S128x32, .f32⟩ : BufTy).Contents (Elt Ideal)) (x4 : (⟨S32, .f32⟩ : BufTy).Contents (Elt Ideal)) (x5 : (⟨S32x16, .f32⟩ : BufTy).Contents (Elt Ideal)) (x6 : (⟨S16, .f32⟩ : BufTy).Contents (Elt Ideal))
    (x7 : (⟨S16x3, .f32⟩ : BufTy).Contents (Elt Ideal)) (x8 : (⟨S3, .f32⟩ : BufTy).Contents (Elt Ideal)) :
    val_main_v109 (F := Ideal) x0 x1 x2 x3 x4 x5 x6 x7 x8 = target x0 x1 x2 x3 x4 x5 x6 x7 x8 := by
  rw [head, layer2, layer1]
  rfl

end Cert.ReferenceIdeal.Target

end
-- ==== Proof.Keeps.lean ====
/-
  Buffers that a segment of the kernel's @main leaves alone.  @main is thirteen segments — stretches of host
  operations and five pallas_calls — and the contents of the buffers after segment j are W j.  A host stretch changes
  only the buffers its operations write; a pallas_call changes only its own arrays.  So an argument array read at
  any boundary is the launch memory's, and the edge lists and the normalisation coefficients, computed before the
  first pallas_call, are still there when the two aggregation stretches read them.
-/
import proofs.«117866_j8160437862929_1_alg».proof.Proof.Gen.KernelIdeal.Frame
import Idealize.ShloMosaic.PureOps.Ideal

noncomputable section

namespace Cert.KernelIdeal.Keeps

open Cert.KernelIdeal Cert.KernelIdeal.Gen
open Idealize.ShloMosaic Idealize.ShloMosaic.TcCoe Idealize.SL.Sem

/-- No operation of the stretch writes the buffer, so the stretch leaves it as it was. -/
macro "host_keeps " ops:ident b:ident : tactic => `(tactic|
  exact StableHlo.after_of_forall_not_mem (b := Proc.devRef .tc $b) _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg)

theorem arg0_at5 (c : Dev nD) : W5 m ρ c (Proc.devRef .tc main_arg0) = (m ((c : Thread nD τ).loc main_arg0)) :=
  calc W5 m ρ c (Proc.devRef .tc main_arg0)
    _ = W4 m ρ c (Proc.devRef .tc main_arg0) := by host_keeps hostOps0_4 main_arg0
    _ = W3 m ρ c (Proc.devRef .tc main_arg0) := by host_keeps hostOps0_3 main_arg0
    _ = W2 m ρ c (Proc.devRef .tc main_arg0) := by host_keeps hostOps0_2 main_arg0
    _ = W1 m ρ c (Proc.devRef .tc main_arg0) := by host_keeps hostOps0_1 main_arg0
    _ = W0 m ρ c (Proc.devRef .tc main_arg0) := by host_keeps hostOps0 main_arg0
    _ = (m ((c : Thread nD τ).loc main_arg0)) := rfl

theorem arg3_at5 (c : Dev nD) : W5 m ρ c (Proc.devRef .tc main_arg3) = (m ((c : Thread nD τ).loc main_arg3)) :=
  calc W5 m ρ c (Proc.devRef .tc main_arg3)
    _ = W4 m ρ c (Proc.devRef .tc main_arg3) := by host_keeps hostOps0_4 main_arg3
    _ = W3 m ρ c (Proc.devRef .tc main_arg3) := by host_keeps hostOps0_3 main_arg3
    _ = W2 m ρ c (Proc.devRef .tc main_arg3) := by host_keeps hostOps0_2 main_arg3
    _ = W1 m ρ c (Proc.devRef .tc main_arg3) := by host_keeps hostOps0_1 main_arg3
    _ = W0 m ρ c (Proc.devRef .tc main_arg3) := by host_keeps hostOps0 main_arg3
    _ = (m ((c : Thread nD τ).loc main_arg3)) := rfl

theorem arg4_at6 (c : Dev nD) : W6 m ρ c (Proc.devRef .tc main_arg4) = (m ((c : Thread nD τ).loc main_arg4)) :=
  calc W6 m ρ c (Proc.devRef .tc main_arg4)
    _ = W5 m ρ c (Proc.devRef .tc main_arg4) := W6_of_ne m ρ c main_arg4 (by decide)
    _ = W4 m ρ c (Proc.devRef .tc main_arg4) := by host_keeps hostOps0_4 main_arg4
    _ = W3 m ρ c (Proc.devRef .tc main_arg4) := by host_keeps hostOps0_3 main_arg4
    _ = W2 m ρ c (Proc.devRef .tc main_arg4) := by host_keeps hostOps0_2 main_arg4
    _ = W1 m ρ c (Proc.devRef .tc main_arg4) := by host_keeps hostOps0_1 main_arg4
    _ = W0 m ρ c (Proc.devRef .tc main_arg4) := by host_keeps hostOps0 main_arg4
    _ = (m ((c : Thread nD τ).loc main_arg4)) := rfl

theorem arg5_at8 (c : Dev nD) : W8 m ρ c (Proc.devRef .tc main_arg5) = (m ((c : Thread nD τ).loc main_arg5)) :=
  calc W8 m ρ c (Proc.devRef .tc main_arg5)
    _ = W7 m ρ c (Proc.devRef .tc main_arg5) := W8_of_ne m ρ c main_arg5 (by decide)
    _ = W6 m ρ c (Proc.devRef .tc main_arg5) := by host_keeps hostOps1 main_arg5
    _ = W5 m ρ c (Proc.devRef .tc main_arg5) := W6_of_ne m ρ c main_arg5 (by decide)
    _ = W4 m ρ c (Proc.devRef .tc main_arg5) := by host_keeps hostOps0_4 main_arg5
    _ = W3 m ρ c (Proc.devRef .tc main_arg5) := by host_keeps hostOps0_3 main_arg5
    _ = W2 m ρ c (Proc.devRef .tc main_arg5) := by host_keeps hostOps0_2 main_arg5
    _ = W1 m ρ c (Proc.devRef .tc main_arg5) := by host_keeps hostOps0_1 main_arg5
    _ = W0 m ρ c (Proc.devRef .tc main_arg5) := by host_keeps hostOps0 main_arg5
    _ = (m ((c : Thread nD τ).loc main_arg5)) := rfl

theorem arg6_at9 (c : Dev nD) : W9 m ρ c (Proc.devRef .tc main_arg6) = (m ((c : Thread nD τ).loc main_arg6)) :=
  calc W9 m ρ c (Proc.devRef .tc main_arg6)
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := by host_keeps hostOps1 main_arg6
    _ = W5 m ρ c (Proc.devRef .tc main_arg6) := W6_of_ne m ρ c main_arg6 (by decide)
    _ = W4 m ρ c (Proc.devRef .tc main_arg6) := by host_keeps hostOps0_4 main_arg6
    _ = W3 m ρ c (Proc.devRef .tc main_arg6) := by host_keeps hostOps0_3 main_arg6
    _ = W2 m ρ c (Proc.devRef .tc main_arg6) := by host_keeps hostOps0_2 main_arg6
    _ = W1 m ρ c (Proc.devRef .tc main_arg6) := by host_keeps hostOps0_1 main_arg6
    _ = W0 m ρ c (Proc.devRef .tc main_arg6) := by host_keeps hostOps0 main_arg6
    _ = (m ((c : Thread nD τ).loc main_arg6)) := rfl

theorem arg7_at12 (c : Dev nD) : W12 m ρ c (Proc.devRef .tc main_arg7) = (m ((c : Thread nD τ).loc main_arg7)) :=
  calc W12 m ρ c (Proc.devRef .tc main_arg7)
    _ = W11 m ρ c (Proc.devRef .tc main_arg7) := by host_keeps hostOps4 main_arg7
    _ = W10 m ρ c (Proc.devRef .tc main_arg7) := W11_of_ne m ρ c main_arg7 (by decide)
    _ = W9 m ρ c (Proc.devRef .tc main_arg7) := by host_keeps hostOps3 main_arg7
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := by host_keeps hostOps1 main_arg7
    _ = W5 m ρ c (Proc.devRef .tc main_arg7) := W6_of_ne m ρ c main_arg7 (by decide)
    _ = W4 m ρ c (Proc.devRef .tc main_arg7) := by host_keeps hostOps0_4 main_arg7
    _ = W3 m ρ c (Proc.devRef .tc main_arg7) := by host_keeps hostOps0_3 main_arg7
    _ = W2 m ρ c (Proc.devRef .tc main_arg7) := by host_keeps hostOps0_2 main_arg7
    _ = W1 m ρ c (Proc.devRef .tc main_arg7) := by host_keeps hostOps0_1 main_arg7
    _ = W0 m ρ c (Proc.devRef .tc main_arg7) := by host_keeps hostOps0 main_arg7
    _ = (m ((c : Thread nD τ).loc main_arg7)) := rfl

theorem arg8_at11 (c : Dev nD) : W11 m ρ c (Proc.devRef .tc main_arg8) = (m ((c : Thread nD τ).loc main_arg8)) :=
  calc W11 m ρ c (Proc.devRef .tc main_arg8)
    _ = W10 m ρ c (Proc.devRef .tc main_arg8) := W11_of_ne m ρ c main_arg8 (by decide)
    _ = W9 m ρ c (Proc.devRef .tc main_arg8) := by host_keeps hostOps3 main_arg8
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := by host_keeps hostOps1 main_arg8
    _ = W5 m ρ c (Proc.devRef .tc main_arg8) := W6_of_ne m ρ c main_arg8 (by decide)
    _ = W4 m ρ c (Proc.devRef .tc main_arg8) := by host_keeps hostOps0_4 main_arg8
    _ = W3 m ρ c (Proc.devRef .tc main_arg8) := by host_keeps hostOps0_3 main_arg8
    _ = W2 m ρ c (Proc.devRef .tc main_arg8) := by host_keeps hostOps0_2 main_arg8
    _ = W1 m ρ c (Proc.devRef .tc main_arg8) := by host_keeps hostOps0_1 main_arg8
    _ = W0 m ρ c (Proc.devRef .tc main_arg8) := by host_keeps hostOps0 main_arg8
    _ = (m ((c : Thread nD τ).loc main_arg8)) := rfl

theorem v5_at6 (c : Dev nD) : W6 m ρ c (Proc.devRef .tc main_v5) = W5 m ρ c (Proc.devRef .tc main_v5) :=
  calc W6 m ρ c (Proc.devRef .tc main_v5)
    _ = W5 m ρ c (Proc.devRef .tc main_v5) := W6_of_ne m ρ c main_v5 (by decide)

theorem v5_at9 (c : Dev nD) : W9 m ρ c (Proc.devRef .tc main_v5) = W5 m ρ c (Proc.devRef .tc main_v5) :=
  calc W9 m ρ c (Proc.devRef .tc main_v5)
    _ = W8 m ρ c (Proc.devRef .tc main_v5) := W9_of_ne m ρ c main_v5 (by decide)
    _ = W7 m ρ c (Proc.devRef .tc main_v5) := W8_of_ne m ρ c main_v5 (by decide)
    _ = W6 m ρ c (Proc.devRef .tc main_v5) := by host_keeps hostOps1 main_v5
    _ = W5 m ρ c (Proc.devRef .tc main_v5) := W6_of_ne m ρ c main_v5 (by decide)

theorem v6_at6 (c : Dev nD) : W6 m ρ c (Proc.devRef .tc main_v6) = W5 m ρ c (Proc.devRef .tc main_v6) :=
  calc W6 m ρ c (Proc.devRef .tc main_v6)
    _ = W5 m ρ c (Proc.devRef .tc main_v6) := W6_of_ne m ρ c main_v6 (by decide)

theorem v6_at9 (c : Dev nD) : W9 m ρ c (Proc.devRef .tc main_v6) = W5 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := by host_keeps hostOps1 main_v6
    _ = W5 m ρ c (Proc.devRef .tc main_v6) := W6_of_ne m ρ c main_v6 (by decide)

theorem v34_at6 (c : Dev nD) : W6 m ρ c (Proc.devRef .tc main_v34) = W5 m ρ c (Proc.devRef .tc main_v34) :=
  calc W6 m ρ c (Proc.devRef .tc main_v34)
    _ = W5 m ρ c (Proc.devRef .tc main_v34) := W6_of_ne m ρ c main_v34 (by decide)

theorem v34_at9 (c : Dev nD) : W9 m ρ c (Proc.devRef .tc main_v34) = W5 m ρ c (Proc.devRef .tc main_v34) :=
  calc W9 m ρ c (Proc.devRef .tc main_v34)
    _ = W8 m ρ c (Proc.devRef .tc main_v34) := W9_of_ne m ρ c main_v34 (by decide)
    _ = W7 m ρ c (Proc.devRef .tc main_v34) := W8_of_ne m ρ c main_v34 (by decide)
    _ = W6 m ρ c (Proc.devRef .tc main_v34) := by host_keeps hostOps1 main_v34
    _ = W5 m ρ c (Proc.devRef .tc main_v34) := W6_of_ne m ρ c main_v34 (by decide)

theorem v66_at12 (c : Dev nD) : W12 m ρ c (Proc.devRef .tc main_v66) = W11 m ρ c (Proc.devRef .tc main_v66) :=
  calc W12 m ρ c (Proc.devRef .tc main_v66)
    _ = W11 m ρ c (Proc.devRef .tc main_v66) := by host_keeps hostOps4 main_v66

end Cert.KernelIdeal.Keeps

end
-- ==== Proof.Coeffs.lean ====
/-
  The graph's edge lists and normalisation coefficients, as the kernel's first host stretches compute them.

  The first stretch splits the edge index into sources and destinations, appends the self loops, appends unit
  weights for them, and adds the weights into the destination nodes' degrees.  The next three invert the square root
  of the positive degrees (one where the degree is not positive, zero afterwards).  The last multiplies, for every
  edge, the inverse root at its source, its weight, and the inverse root at its destination.  Each stretch is read as
  a function of whatever the buffers held when it started; composed, they are the reference's stages of the same
  names, operation for operation.
-/
import proofs.«117866_j8160437862929_1_alg».proof.Proof.Gen.KernelIdeal.Frame
import proofs.«117866_j8160437862929_1_alg».proof.Proof.RefTarget
import proofs.«117866_j8160437862929_1_alg».proof.Proof.Keeps

noncomputable section

namespace Cert.KernelIdeal.Coeffs

open Cert.KernelIdeal Cert.KernelIdeal.Gen Cert.KernelIdeal.Keeps
open Idealize.ShloMosaic Idealize.ShloMosaic.TcCoe Idealize.ShloMosaic.ValueIdx Idealize.SL.Sem
open Idealize.ShloMosaic.StableHlo

/-! ## Each stretch after the first, from any starting contents -/

/-- The first selection: the degree where it is positive, one elsewhere. -/
theorem where_deg (V : Valuation τ sig (Elt Ideal)) :
    StableHlo.after hostOps0_1 V (Proc.devRef .tc main_v16)
      = select (V (Proc.devRef .tc main_v15)) (V (Proc.devRef .tc main_v11))
          (broadcastInDim S100000 ![] bcast_S_S100000 (id (V (Proc.devRef .tc main_cst_3)))) := by
  after_results_simp
  rfl

/-- The inverse square root of that. -/
theorem rsqrt_deg (V : Valuation τ sig (Elt Ideal)) :
    (StableHlo.after hostOps0_2 V (Proc.devRef .tc main_v17) : (⟨S100000, .f32⟩ : BufTy).Contents (Elt Ideal))
      = Host.rsqrt (F := Ideal) (φ := .f32) (V (Proc.devRef .tc main_v16)) := by
  after_results_simp

theorem zero_after (V : Valuation τ sig (Elt Ideal)) :
    StableHlo.after hostOps0_2 V (Proc.devRef .tc main_cst_4) = constant (F := Ideal) S_ .f32 0x00000000#32 := by
  after_results_simp

/-- The second selection: the inverse root where the degree is positive, zero elsewhere. -/
theorem where_dinv (V : Valuation τ sig (Elt Ideal)) :
    StableHlo.after hostOps0_3 V (Proc.devRef .tc main_v18)
      = select (V (Proc.devRef .tc main_v13)) (V (Proc.devRef .tc main_v17))
          (broadcastInDim S100000 ![] bcast_S_S100000 (id (V (Proc.devRef .tc main_cst_4)))) := by
  after_results_simp
  rfl

/-- The coefficients: inverse root at the source, times the weight, times the inverse root at the destination. -/
theorem coeff_step (V : Valuation τ sig (Elt Ideal)) :
    (StableHlo.after hostOps0_4 V (Proc.devRef .tc main_v34) : (⟨S3300000, .f32⟩ : BufTy).Contents (Elt Ideal))
      = mulf (F := Ideal) (φ := .f32) (mulf (F := Ideal) (φ := .f32) (Host.gather gather_S100000_S3300000x1_S3300000_n_0_n_n_0_1_1 (V (Proc.devRef .tc main_v18))
            (broadcastInDim S3300000x1 ![0] bcast_S3300000_S3300000x1_0
              (select (cmpi .slt (V (Proc.devRef .tc main_v5)) (broadcastInDim S3300000 ![] bcast_S_S3300000 (constantI S_ 32 0#32)))
                (addi (V (Proc.devRef .tc main_v5)) (broadcastInDim S3300000 ![] bcast_S_S3300000 (constantI S_ 32 100000#32)))
                (V (Proc.devRef .tc main_v5))))) (V (Proc.devRef .tc main_v8)))
          (Host.gather gather_S100000_S3300000x1_S3300000_n_0_n_n_0_1_1 (V (Proc.devRef .tc main_v18))
            (broadcastInDim S3300000x1 ![0] bcast_S3300000_S3300000x1_0
              (select (cmpi .slt (V (Proc.devRef .tc main_v6)) (broadcastInDim S3300000 ![] bcast_S_S3300000 (constantI S_ 32 0#32)))
                (addi (V (Proc.devRef .tc main_v6)) (broadcastInDim S3300000 ![] bcast_S_S3300000 (constantI S_ 32 100000#32)))
                (V (Proc.devRef .tc main_v6))))) := by
  after_results_simp

variable (m : (ℓ : Loc nD τ sig) → Buf (Elt Ideal) ℓ) (ρ : Dev nD → PrngReg)

/-! ## The first stretch, from the launch memory: the reference's stages -/

theorem v5_at1 (d : Dev nD) : W1 m ρ d (Proc.devRef .tc main_v5) = Cert.ReferenceIdeal.Read.val_main_v6 (F := Ideal) (m ((d : Thread nD τ).loc main_arg1)) := by
  show StableHlo.after hostOps0 (W0 m ρ d) (Proc.devRef .tc main_v5) = _
  after_results_simp
  rfl

theorem v6_at1 (d : Dev nD) : W1 m ρ d (Proc.devRef .tc main_v6) = Cert.ReferenceIdeal.Read.val_main_v7 (F := Ideal) (m ((d : Thread nD τ).loc main_arg1)) := by
  show StableHlo.after hostOps0 (W0 m ρ d) (Proc.devRef .tc main_v6) = _
  after_results_simp
  rfl

theorem v8_at1 (d : Dev nD) : W1 m ρ d (Proc.devRef .tc main_v8) = Cert.ReferenceIdeal.Read.val_main_v9 (F := Ideal) (m ((d : Thread nD τ).loc main_arg2)) := by
  show StableHlo.after hostOps0 (W0 m ρ d) (Proc.devRef .tc main_v8) = _
  after_results_simp
  rfl

theorem v11_at1 (d : Dev nD) : W1 m ρ d (Proc.devRef .tc main_v11) = Cert.ReferenceIdeal.Read.val_main_v12 (F := Ideal) (m ((d : Thread nD τ).loc main_arg1)) (m ((d : Thread nD τ).loc main_arg2)) := by
  show StableHlo.after hostOps0 (W0 m ρ d) (Proc.devRef .tc main_v11) = _
  after_results_simp
  rfl

theorem v13_at1 (d : Dev nD) : W1 m ρ d (Proc.devRef .tc main_v13) = Cert.ReferenceIdeal.Read.val_main_v14 (F := Ideal) (m ((d : Thread nD τ).loc main_arg1)) (m ((d : Thread nD τ).loc main_arg2)) := by
  show StableHlo.after hostOps0 (W0 m ρ d) (Proc.devRef .tc main_v13) = _
  after_results_simp
  rfl

theorem v15_at1 (d : Dev nD) : W1 m ρ d (Proc.devRef .tc main_v15) = Cert.ReferenceIdeal.Read.val_main_v16 (F := Ideal) (m ((d : Thread nD τ).loc main_arg1)) (m ((d : Thread nD τ).loc main_arg2)) := by
  show StableHlo.after hostOps0 (W0 m ρ d) (Proc.devRef .tc main_v15) = _
  after_results_simp
  rfl

theorem cst3_at1 (d : Dev nD) : W1 m ρ d (Proc.devRef .tc main_cst_3) = Cert.ReferenceIdeal.Read.val_main_cst_3 (F := Ideal) := by
  show StableHlo.after hostOps0 (W0 m ρ d) (Proc.devRef .tc main_cst_3) = _
  after_results_simp
  rfl

/-! ## What the later stretches leave alone -/

theorem v5_at5 (d : Dev nD) : W5 m ρ d (Proc.devRef .tc main_v5) = W1 m ρ d (Proc.devRef .tc main_v5) :=
  calc W5 m ρ d (Proc.devRef .tc main_v5)
    _ = W4 m ρ d (Proc.devRef .tc main_v5) := by host_keeps hostOps0_4 main_v5
    _ = W3 m ρ d (Proc.devRef .tc main_v5) := by host_keeps hostOps0_3 main_v5
    _ = W2 m ρ d (Proc.devRef .tc main_v5) := by host_keeps hostOps0_2 main_v5
    _ = W1 m ρ d (Proc.devRef .tc main_v5) := by host_keeps hostOps0_1 main_v5

theorem v6_at5 (d : Dev nD) : W5 m ρ d (Proc.devRef .tc main_v6) = W1 m ρ d (Proc.devRef .tc main_v6) :=
  calc W5 m ρ d (Proc.devRef .tc main_v6)
    _ = W4 m ρ d (Proc.devRef .tc main_v6) := by host_keeps hostOps0_4 main_v6
    _ = W3 m ρ d (Proc.devRef .tc main_v6) := by host_keeps hostOps0_3 main_v6
    _ = W2 m ρ d (Proc.devRef .tc main_v6) := by host_keeps hostOps0_2 main_v6
    _ = W1 m ρ d (Proc.devRef .tc main_v6) := by host_keeps hostOps0_1 main_v6

theorem v5_at4 (d : Dev nD) : W4 m ρ d (Proc.devRef .tc main_v5) = W1 m ρ d (Proc.devRef .tc main_v5) :=
  calc W4 m ρ d (Proc.devRef .tc main_v5)
    _ = W3 m ρ d (Proc.devRef .tc main_v5) := by host_keeps hostOps0_3 main_v5
    _ = W2 m ρ d (Proc.devRef .tc main_v5) := by host_keeps hostOps0_2 main_v5
    _ = W1 m ρ d (Proc.devRef .tc main_v5) := by host_keeps hostOps0_1 main_v5

theorem v6_at4 (d : Dev nD) : W4 m ρ d (Proc.devRef .tc main_v6) = W1 m ρ d (Proc.devRef .tc main_v6) :=
  calc W4 m ρ d (Proc.devRef .tc main_v6)
    _ = W3 m ρ d (Proc.devRef .tc main_v6) := by host_keeps hostOps0_3 main_v6
    _ = W2 m ρ d (Proc.devRef .tc main_v6) := by host_keeps hostOps0_2 main_v6
    _ = W1 m ρ d (Proc.devRef .tc main_v6) := by host_keeps hostOps0_1 main_v6

theorem v8_at4 (d : Dev nD) : W4 m ρ d (Proc.devRef .tc main_v8) = W1 m ρ d (Proc.devRef .tc main_v8) :=
  calc W4 m ρ d (Proc.devRef .tc main_v8)
    _ = W3 m ρ d (Proc.devRef .tc main_v8) := by host_keeps hostOps0_3 main_v8
    _ = W2 m ρ d (Proc.devRef .tc main_v8) := by host_keeps hostOps0_2 main_v8
    _ = W1 m ρ d (Proc.devRef .tc main_v8) := by host_keeps hostOps0_1 main_v8

theorem v13_at3 (d : Dev nD) : W3 m ρ d (Proc.devRef .tc main_v13) = W1 m ρ d (Proc.devRef .tc main_v13) :=
  calc W3 m ρ d (Proc.devRef .tc main_v13)
    _ = W2 m ρ d (Proc.devRef .tc main_v13) := by host_keeps hostOps0_2 main_v13
    _ = W1 m ρ d (Proc.devRef .tc main_v13) := by host_keeps hostOps0_1 main_v13

/-! ## Composed -/

/-- The inverse square roots of the degrees are the reference's. -/
theorem v18_at4 (d : Dev nD) : W4 m ρ d (Proc.devRef .tc main_v18) = Cert.ReferenceIdeal.Read.val_main_v19 (F := Ideal) (m ((d : Thread nD τ).loc main_arg1)) (m ((d : Thread nD τ).loc main_arg2)) := by
  have h16 : W2 m ρ d (Proc.devRef .tc main_v16) = Cert.ReferenceIdeal.Read.val_main_v17 (F := Ideal) (m ((d : Thread nD τ).loc main_arg1)) (m ((d : Thread nD τ).loc main_arg2)) := by
    refine (where_deg (W1 m ρ d)).trans ?_
    rw [v15_at1, v11_at1, cst3_at1]
    rfl
  have h17 : W3 m ρ d (Proc.devRef .tc main_v17) = Cert.ReferenceIdeal.Read.val_main_v18 (F := Ideal) (m ((d : Thread nD τ).loc main_arg1)) (m ((d : Thread nD τ).loc main_arg2)) := by
    refine (rsqrt_deg (W2 m ρ d)).trans ?_
    rw [h16]
    rfl
  have hz : W3 m ρ d (Proc.devRef .tc main_cst_4) = constant (F := Ideal) S_ .f32 0x00000000#32 := zero_after (W2 m ρ d)
  refine (where_dinv (W3 m ρ d)).trans ?_
  rw [v13_at3, v13_at1, h17, hz]
  rfl

theorem v5_at5' (d : Dev nD) : W5 m ρ d (Proc.devRef .tc main_v5) = Cert.ReferenceIdeal.Target.src (m ((d : Thread nD τ).loc main_arg1)) := (v5_at5 m ρ d).trans (v5_at1 m ρ d)
theorem v6_at5' (d : Dev nD) : W5 m ρ d (Proc.devRef .tc main_v6) = Cert.ReferenceIdeal.Target.dst (m ((d : Thread nD τ).loc main_arg1)) := (v6_at5 m ρ d).trans (v6_at1 m ρ d)

/-- The coefficients are the reference's. -/
theorem v34_at5 (d : Dev nD) : W5 m ρ d (Proc.devRef .tc main_v34) = Cert.ReferenceIdeal.Target.nrm (m ((d : Thread nD τ).loc main_arg1)) (m ((d : Thread nD τ).loc main_arg2)) := by
  refine (coeff_step (W4 m ρ d)).trans ?_
  rw [v18_at4, v5_at4, v6_at4, v8_at4, v5_at1, v6_at1, v8_at1]
  rfl

end Cert.KernelIdeal.Coeffs

end
-- ==== Proof.Chain.lean ====
/-
  The idealized kernel's result as a function of its arguments.  Reading the thirteen segments backwards from the
  result buffer:

    the head call      leaves  (h2 · Wout) + bout,            h2 the second layer's output;
    the fourth call    leaves  h2 = max (a2 + b2) 0,          a2 the second aggregation;
    a host stretch     computes a2 from (h1 · W2), the edge lists and the coefficients;
    the third call     leaves  h1 · W2;
    the second call    leaves  h1 = max (a1 + b1) 0;
    a host stretch     computes a1 from (x · W1), the edge lists and the coefficients;
    the first call     leaves  x · W1;
    the first stretches compute the edge lists and the coefficients from the graph (module Coeffs).

  Each bias reaches its call as the 1 × c reshape of the vector.  The aggregation stretches and the first stretches
  are, operation for operation, the reference's, so their values are the reference's stages by unfolding.  Put
  together the result is the reference's two layers and head of the same arguments.
-/
import proofs.«117866_j8160437862929_1_alg».proof.Proof.Gen.KernelIdeal.Frame
import proofs.«117866_j8160437862929_1_alg».proof.Proof.Region0
import proofs.«117866_j8160437862929_1_alg».proof.Proof.Region1
import proofs.«117866_j8160437862929_1_alg».proof.Proof.Region2
import proofs.«117866_j8160437862929_1_alg».proof.Proof.Region3
import proofs.«117866_j8160437862929_1_alg».proof.Proof.Region4
import proofs.«117866_j8160437862929_1_alg».proof.Proof.RefTarget
import proofs.«117866_j8160437862929_1_alg».proof.Proof.Keeps
import proofs.«117866_j8160437862929_1_alg».proof.Proof.Coeffs

noncomputable section

namespace Cert.KernelIdeal.Chain

open Cert.KernelIdeal Cert.KernelIdeal.Gen Cert.KernelIdeal.Keeps Cert.Layers
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-! ## What each pallas_call leaves in its result array -/

theorem v35_at6 (d : Dev nD) : W6 m ρ d (Proc.devRef .tc main_v35)
    = mm (n := 100000) (k := 128) (c := 32) (W5 m ρ d (Proc.devRef .tc main_arg0)) (W5 m ρ d (Proc.devRef .tc main_arg3)) :=
  (W6_arr m ρ d 2).trans (Region0.final (V5 m ρ) d)

theorem v50_at8 (d : Dev nD) : W8 m ρ d (Proc.devRef .tc main_v50)
    = biasReluRow (n := 100000) (c := 32) (W7 m ρ d (Proc.devRef .tc main_v48)) (W7 m ρ d (Proc.devRef .tc main_v49)) :=
  (W8_arr m ρ d 2).trans (Region1.final (V7 m ρ) d)

theorem v51_at9 (d : Dev nD) : W9 m ρ d (Proc.devRef .tc main_v51)
    = mm (n := 100000) (k := 32) (c := 16) (W8 m ρ d (Proc.devRef .tc main_v50)) (W8 m ρ d (Proc.devRef .tc main_arg5)) :=
  (W9_arr m ρ d 2).trans (Region2.final (V8 m ρ) d)

theorem v66_at11 (d : Dev nD) : W11 m ρ d (Proc.devRef .tc main_v66)
    = biasReluRow (n := 100000) (c := 16) (W10 m ρ d (Proc.devRef .tc main_v64)) (W10 m ρ d (Proc.devRef .tc main_v65)) :=
  (W11_arr m ρ d 2).trans (Region3.final (V10 m ρ) d)

theorem v68_at13 (d : Dev nD) : W13 m ρ d (Proc.devRef .tc main_v68)
    = addBiasRow (mm (n := 100000) (k := 16) (c := 3) (W12 m ρ d (Proc.devRef .tc main_v66)) (W12 m ρ d (Proc.devRef .tc main_arg7))) (W12 m ρ d (Proc.devRef .tc main_v67)) :=
  (W13_arr m ρ d 3).trans (Region4.final (V12 m ρ) d)

/-! ## What the host stretches between the calls compute -/

/-- The head's bias row is the reshape of the bias vector. -/
theorem v67_at12 (d : Dev nD) : W12 m ρ d (Proc.devRef .tc main_v67) = shapeCast S1x3 (W11 m ρ d (Proc.devRef .tc main_arg8)) shapeCasts_S3_S1x3 := by
  show StableHlo.after hostOps4 (W11 m ρ d) (Proc.devRef .tc main_v67) = _
  after_results
  rfl

/-- The second layer's bias row is the reshape of its bias vector. -/
theorem v65_at10 (d : Dev nD) : W10 m ρ d (Proc.devRef .tc main_v65) = shapeCast S1x16 (W9 m ρ d (Proc.devRef .tc main_arg6)) shapeCasts_S16_S1x16 := by
  show StableHlo.after hostOps3 (W9 m ρ d) (Proc.devRef .tc main_v65) = _
  after_results
  rfl

/-- The first layer's bias row is the reshape of its bias vector. -/
theorem v49_at7 (d : Dev nD) : W7 m ρ d (Proc.devRef .tc main_v49) = shapeCast S1x32 (W6 m ρ d (Proc.devRef .tc main_arg4)) shapeCasts_S32_S1x32 := by
  show StableHlo.after hostOps1 (W6 m ρ d) (Proc.devRef .tc main_v49) = _
  after_results
  rfl

/-- The second aggregation: gather the source rows, scale by the coefficients, add into the destination rows. -/
theorem v64_at10 (d : Dev nD) : W10 m ρ d (Proc.devRef .tc main_v64)
    = Cert.ReferenceIdeal.Target.agg16 (W9 m ρ d (Proc.devRef .tc main_v51)) (W9 m ρ d (Proc.devRef .tc main_v5)) (W9 m ρ d (Proc.devRef .tc main_v6)) (W9 m ρ d (Proc.devRef .tc main_v34)) := by
  show StableHlo.after hostOps3 (W9 m ρ d) (Proc.devRef .tc main_v64) = _
  after_results_simp
  rfl

/-- The first aggregation. -/
theorem v48_at7 (d : Dev nD) : W7 m ρ d (Proc.devRef .tc main_v48)
    = Cert.ReferenceIdeal.Target.agg32 (W6 m ρ d (Proc.devRef .tc main_v35)) (W6 m ρ d (Proc.devRef .tc main_v5)) (W6 m ρ d (Proc.devRef .tc main_v6)) (W6 m ρ d (Proc.devRef .tc main_v34)) := by
  show StableHlo.after hostOps1 (W6 m ρ d) (Proc.devRef .tc main_v48) = _
  after_results_simp
  rfl

/-! ## The result -/

/-- The result buffer after the last segment is the reference's function of the arguments. -/
theorem result_eq (d : Dev nD) : W13 m ρ d (Proc.devRef .tc main_v68)
    = Cert.ReferenceIdeal.Target.target (m ((d : Thread nD τ).loc main_arg0)) (m ((d : Thread nD τ).loc main_arg1)) (m ((d : Thread nD τ).loc main_arg2)) (m ((d : Thread nD τ).loc main_arg3)) (m ((d : Thread nD τ).loc main_arg4))
        (m ((d : Thread nD τ).loc main_arg5)) (m ((d : Thread nD τ).loc main_arg6)) (m ((d : Thread nD τ).loc main_arg7)) (m ((d : Thread nD τ).loc main_arg8)) := by
  rw [v68_at13, v67_at12, v66_at12, arg7_at12, arg8_at11, addBiasRow_cast,
    v66_at11, v64_at10, v65_at10, arg6_at9, biasReluRow_cast,
    v51_at9, v5_at9, v6_at9, v34_at9, arg5_at8,
    v50_at8, v48_at7, v49_at7, arg4_at6, biasReluRow_cast,
    v35_at6, v5_at6, v6_at6, v34_at6, arg0_at5, arg3_at5, Coeffs.v5_at5', Coeffs.v6_at5', Coeffs.v34_at5]
  rfl

end Cert.KernelIdeal.Chain

end
-- ==== Proof.Claims.lean ====
/-
  The five claims.  The word-level kernel and its idealization run without a fault and leave their arguments alone:
  the generated frames.  The reference does too: its generated run with the result dropped.  The ideal pass rewrote
  nothing, so there is nothing to preserve.  And at the extended reals the idealized kernel and the idealized
  reference, started on the same arguments, both end at the same array: two graph convolution layers and a linear
  head of those arguments — the kernel by reading its thirteen segments back from the result buffer, the reference
  by regrouping its stages into layers.
-/
import proofs.«117866_j8160437862929_1_alg».proof.Defs
import proofs.«117866_j8160437862929_1_alg».proof.Proof.Gen.Pre_finite_inputs
import proofs.«117866_j8160437862929_1_alg».proof.Proof.Gen.Kernel.Frame
import proofs.«117866_j8160437862929_1_alg».proof.Proof.Gen.KernelIdeal.Frame
import proofs.«117866_j8160437862929_1_alg».proof.Proof.Gen.ReferenceIdeal.Run
import proofs.«117866_j8160437862929_1_alg».proof.Proof.Gen.ReferenceIdeal.Read
import proofs.«117866_j8160437862929_1_alg».proof.Proof.KernelRun
import proofs.«117866_j8160437862929_1_alg».proof.Proof.Chain
import proofs.«117866_j8160437862929_1_alg».proof.Proof.RefTarget

noncomputable section

namespace Cert.Proof.Claims

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the two layers and head of the kernel's arguments. -/
theorem algebraic : Cert.algebraic_KernelIdeal_ReferenceIdeal := by
  intro m ρ m' ρ' _ hagree
  refine ⟨fun c => Cert.ReferenceIdeal.Target.target (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.result_eq m ρ c), (h c).2⟩)
      (Cert.KernelIdeal.ValueRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v109_eq, Cert.ReferenceIdeal.Target.ref_eq, a0, a1, a2, a3, a4, a5, a6, a7, a8]

end Cert.Proof.Claims

end
-- ==== Proof.lean ====
/-
  The certificate: a two-layer graph convolution network with a linear head, its dense steps as five Pallas calls,
  against the plain jnp reference, over the extended reals.

  Both programs compute, for node features x, edge lists and weights, and parameters W1 b1 W2 b2 Wout bout:

      h1  = max (A (x · W1) + b1) 0,     h2 = max (A (h1 · W2) + b2) 0,     out = h2 · Wout + bout,

  where A scales every edge's source row by the edge's symmetric normalisation coefficient and adds it into the
  destination row (self loops included).  The kernel computes the edge lists and coefficients once and the reference
  once per layer, by the same operations; the kernel's products run block by block over ten row blocks, in a narrower
  float format that is exact here; its biases arrive as 1 × c rows.  None of that changes a value over the extended
  reals, and no algebraic law beyond the meaning of the operations is needed: the inputs' finiteness is never used.

  Modules: LibDenseLayers (the dense layers and their host forms), Region0 … Region4 (what each call leaves in its result
  array), KernelRun (the kernel's run with the result named), Keeps and Chain (the kernel's result read back through
  its segments), RefTarget (the reference regrouped into layers), Claims (the five claims).
-/
import proofs.«117866_j8160437862929_1_alg».proof.Defs
import proofs.«117866_j8160437862929_1_alg».proof.Proof.Gen.Kernel
import proofs.«117866_j8160437862929_1_alg».proof.Proof.Gen.Kernel.Skeleton
import proofs.«117866_j8160437862929_1_alg».proof.Proof.Gen.Kernel.Launch
import proofs.«117866_j8160437862929_1_alg».proof.Proof.Gen.Kernel.Points
import proofs.«117866_j8160437862929_1_alg».proof.Proof.Gen.Kernel.Frame
import proofs.«117866_j8160437862929_1_alg».proof.Proof.Gen.KernelIdeal
import proofs.«117866_j8160437862929_1_alg».proof.Proof.Gen.KernelIdeal.Skeleton
import proofs.«117866_j8160437862929_1_alg».proof.Proof.Gen.KernelIdeal.Launch
import proofs.«117866_j8160437862929_1_alg».proof.Proof.Gen.KernelIdeal.Points
import proofs.«117866_j8160437862929_1_alg».proof.Proof.Gen.KernelIdeal.Frame
import proofs.«117866_j8160437862929_1_alg».proof.Proof.Gen.ReferenceIdeal
import proofs.«117866_j8160437862929_1_alg».proof.Proof.Gen.ReferenceIdeal.Run
import proofs.«117866_j8160437862929_1_alg».proof.Proof.Gen.ReferenceIdeal.Read
import proofs.«117866_j8160437862929_1_alg».proof.Proof.Gen.Pre_finite_inputs
import proofs.«117866_j8160437862929_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, Claims.preserves, Claims.algebraic⟩

end Cert.Proof

end
